-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x2 : Shape := ⟨2, ![600000, 2]⟩
abbrev S128x128 : Shape := ⟨2, ![128, 128]⟩
abbrev S128 : Shape := ⟨1, ![128]⟩
abbrev S2x256x128 : Shape := ⟨3, ![2, 256, 128]⟩
abbrev S2x128 : Shape := ⟨2, ![2, 128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x256x128 : S_.BroadcastsInDim S2x256x128 (![] : Fin 0 → Fin S2x256x128.rank)
  reducesTo_S2x256x128_S_d0_1_2 : S2x256x128.ReducesTo [0, 1, 2] S_
  bcast_S_S2x128 : S_.BroadcastsInDim S2x128 (![] : Fin 0 → Fin S2x128.rank)
  reducesTo_S2x128_S_d0_1 : S2x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S2x128 .f32) (main_arg6 : FVec F S128x40 .f32) (main_arg7 : FVec F S40 .f32) (main_v13 : IVec S_ 1) (main_v16 : IVec S2x256x128 1) : IVec S_ 1 :=
  let main_c_5 : IVec S_ 1 := constantI S_ 1 1#1
  let main_v17 : IVec S_ 1 := (fun x v => Host.reduce IntOp.andi x v reducesTo_S2x256x128_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S600000x2 32) (main_arg2 : FVec F S128x128 .f32) (main_arg3 : FVec F S128 .f32) (main_arg4 : FVec F S2x256x128 .f32) (main_arg5 : FVec F S2x128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x256x128 .f32 := Host.absf main_arg4
  let main_cst_4 : FVec F S_ .f32 := constant S_ .f32 0x7F800000#32
  let main_v15 : FVec F S2x256x128 .f32 := broadcastInDim S2x256x128 ![] bcast_S_S2x256x128 main_cst_4
  let main_v16 : IVec S2x256x128 1 := cmpf .olt main_v14 main_v15
  fn_part1 (F := F) main_arg5 main_arg6 main_arg7 main_v13 main_v16
-- ==== Kernel.lean ====
abbrev S50000x128 : Shape := ⟨2, ![50000, 128]⟩
abbrev S600000x2 : Shape := ⟨2, ![600000, 2]⟩
abbrev S128x128 : Shape := ⟨2, ![128, 128]⟩
abbrev S128 : Shape := ⟨1, ![128]⟩
abbrev S2x256x128 : Shape := ⟨3, ![2, 256, 128]⟩
abbrev S2x128 : Shape := ⟨2, ![2, 128]⟩
abbrev S128x40 : Shape := ⟨2, ![128, 40]⟩
abbrev S40 : Shape := ⟨1, ![40]⟩
abbrev S600000x1 : Shape := ⟨2, ![600000, 1]⟩
abbrev S600000 : Shape := ⟨1, ![600000]⟩
abbrev S1x128 : Shape := ⟨2, ![1, 128]⟩
abbrev S2000x128 : Shape := ⟨2, ![2000, 128]⟩
abbrev S_ : Shape := ⟨0, ![]⟩
abbrev S50000 : Shape := ⟨1, ![50000]⟩
abbrev S600000x128 : Shape := ⟨2, ![600000, 128]⟩
abbrev S50000x1 : Shape := ⟨2, ![50000, 1]⟩
abbrev S1x128x128 : Shape := ⟨3, ![1, 128, 128]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 76
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S600000x2, .i32⟩
  | .hbm, ⟨2, _⟩ => ⟨S128x128, .f32⟩
  | .hbm, ⟨3, _⟩ => ⟨S128, .f32⟩
  | .hbm, ⟨4, _⟩ => ⟨S2x256x128, .f32⟩
  | .hbm, ⟨5, _⟩ => ⟨S2x128, .f32⟩
  | .hbm, ⟨6, _⟩ => ⟨S128x40, .f32⟩
  | .hbm, ⟨7, _⟩ => ⟨S40, .f32⟩
  | .hbm, ⟨8, _⟩ => ⟨S600000x1, .i32⟩
  | .hbm, ⟨9, _⟩ => ⟨S600000, .i32⟩
  | .hbm, ⟨10, _⟩ => ⟨S600000x1, .i32⟩
  | .hbm, ⟨11, _⟩ => ⟨S600000, .i32⟩
  | .hbm, ⟨12, _⟩ => ⟨S1x128, .f32⟩
  | .hbm, ⟨13, _⟩ => ⟨S50000x128, .f32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S1x128x128, .f32⟩
  | .hbm, ⟨43, _⟩ => ⟨S128x128, .f32⟩
  | .hbm, ⟨44, _⟩ => ⟨S1x128x128, .f32⟩
  | .hbm, ⟨45, _⟩ => ⟨S128x128, .f32⟩
  | .hbm, ⟨46, _⟩ => ⟨S1x128, .f32⟩
  | .hbm, ⟨47, _⟩ => ⟨S128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S1x128x128, .f32⟩
  | .hbm, ⟨67, _⟩ => ⟨S128x128, .f32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S50000x128, .f32⟩
  | .hbm, ⟨74, _⟩ => ⟨S1x40, .f32⟩
  | .hbm, ⟨75, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x40, .f32⟩
  | .local _ .vmem, ⟨27, _⟩ => ⟨S1x40, .f32⟩
  | .local _ .vmem, ⟨28, _⟩ => ⟨S2000x40, .f32⟩
  | .local _ .vmem, ⟨29, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x256x128_S1x128x128_0_0_0 : S2x256x128.Slices ![0, 0, 0] S1x128x128
  shapeCasts_S1x128x128_S128x128 : S1x128x128.ShapeCasts S128x128
  slices_S2x256x128_S1x128x128_0_128_0 : S2x256x128.Slices ![0, 128, 0] S1x128x128
  slices_S2x128_S1x128_0_0 : S2x128.Slices ![0, 0] S1x128
  shapeCasts_S1x128_S128 : S1x128.ShapeCasts S128
  shapeCasts_S2000x128_S2000x128 : S2000x128.ShapeCasts S2000x128
  shapeCasts_S128x128_S128x128 : S128x128.ShapeCasts S128x128
  slices_S2x256x128_S1x128x128_1_0_0 : S2x256x128.Slices ![1, 0, 0] S1x128x128
  slices_S2x256x128_S1x128x128_1_128_0 : S2x256x128.Slices ![1, 128, 0] S1x128x128
  slices_S2x128_S1x128_1_0 : S2x128.Slices ![1, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  dot_S2000x128_S128x128_S2000x128_1_0_0_1_n_n_wf : DotDims.WF S2000x128 S128x128 S2000x128 [1] [0] [0] [1] [] []
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S50000x40.size a
  hwx3_3 : ∀ i : grid3.Coords, EltTy.bits .f32 = 32 ∨ (Rect.block (s := S50000x40) S2000x40.size (cc3_transform_3 i) (hinb3_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000x2 : Shape := ⟨2, ![600000, 2]⟩
abbrev S128x128 : Shape := ⟨2, ![128, 128]⟩
abbrev S128 : Shape := ⟨1, ![128]⟩
abbrev S2x256x128 : Shape := ⟨3, ![2, 256, 128]⟩
abbrev S2x128 : Shape := ⟨2, ![2, 128]⟩
abbrev S128x40 : Shape := ⟨2, ![128, 40]⟩
abbrev S40 : Shape := ⟨1, ![40]⟩
abbrev S600000x1 : Shape := ⟨2, ![600000, 1]⟩
abbrev S600000 : Shape := ⟨1, ![600000]⟩
abbrev S1x128 : Shape := ⟨2, ![1, 128]⟩
abbrev S_ : Shape := ⟨0, ![]⟩
abbrev S50000 : Shape := ⟨1, ![50000]⟩
abbrev S600000x128 : Shape := ⟨2, ![600000, 128]⟩
abbrev S50000x1 : Shape := ⟨2, ![50000, 1]⟩
abbrev S50000x256 : Shape := ⟨2, ![50000, 256]⟩
abbrev S1x256x128 : Shape := ⟨3, ![1, 256, 128]⟩
abbrev S256x128 : Shape := ⟨2, ![256, 128]⟩
abbrev S50000x40 : Shape := ⟨2, ![50000, 40]⟩
abbrev S1x40 : Shape := ⟨2, ![1, 40]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x2, .i32⟩
  | .hbm, ⟨2, _⟩ => ⟨S128x128, .f32⟩
  | .hbm, ⟨3, _⟩ => ⟨S128, .f32⟩
  | .hbm, ⟨4, _⟩ => ⟨S2x256x128, .f32⟩
  | .hbm, ⟨5, _⟩ => ⟨S2x128, .f32⟩
  | .hbm, ⟨6, _⟩ => ⟨S128x40, .f32⟩
  | .hbm, ⟨7, _⟩ => ⟨S40, .f32⟩
  | .hbm, ⟨8, _⟩ => ⟨S600000x1, .i32⟩
  | .hbm, ⟨9, _⟩ => ⟨S600000, .i32⟩
  | .hbm, ⟨10, _⟩ => ⟨S600000x1, .i32⟩
  | .hbm, ⟨11, _⟩ => ⟨S600000, .i32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S_, .f32⟩
  | .hbm, ⟨17, _⟩ => ⟨S50000x128, .f32⟩
  | .hbm, ⟨18, _⟩ => ⟨S50000x128, .f32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S_, .f32⟩
  | .hbm, ⟨41, _⟩ => ⟨S50000x128, .f32⟩
  | .hbm, ⟨42, _⟩ => ⟨S600000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S50000x256, .f32⟩
  | .hbm, ⟨48, _⟩ => ⟨S1x256x128, .f32⟩
  | .hbm, ⟨49, _⟩ => ⟨S256x128, .f32⟩
  | .hbm, ⟨50, _⟩ => ⟨S50000x128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .f32⟩
  | .hbm, ⟨68, _⟩ => ⟨S_, .f32⟩
  | .hbm, ⟨69, _⟩ => ⟨S50000x128, .f32⟩
  | .hbm, ⟨70, _⟩ => ⟨S600000x1, .i32⟩
  | .hbm, ⟨71, _⟩ => ⟨S50000x128, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x256, .f32⟩
  | .hbm, ⟨76, _⟩ => ⟨S1x256x128, .f32⟩
  | .hbm, ⟨77, _⟩ => ⟨S256x128, .f32⟩
  | .hbm, ⟨78, _⟩ => ⟨S50000x128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x40, .f32⟩
  | .hbm, ⟨88, _⟩ => ⟨S1x40, .f32⟩
  | .hbm, ⟨89, _⟩ => ⟨S50000x40, .f32⟩
  | .hbm, ⟨90, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call1_cst : Ref sig .tc := ⟨.hbm, 56, rfl⟩
abbrev main_call1_v0 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call2_cst : Ref sig .tc := ⟨.hbm, 84, rfl⟩
abbrev main_call2_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  slices_S2x256x128_S1x256x128_0_0_0 : S2x256x128.Slices ![0, 0, 0] S1x256x128
  shapeCasts_S1x256x128_S256x128 : S1x256x128.ShapeCasts S256x128
  slices_S2x128_S1x128_0_0 : S2x128.Slices ![0, 0] S1x128
  shapeCasts_S1x128_S128 : S1x128.ShapeCasts S128
  slices_S2x256x128_S1x256x128_1_0_0 : S2x256x128.Slices ![1, 0, 0] S1x256x128
  slices_S2x128_S1x128_1_0 : S2x128.Slices ![1, 0] S1x128
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x40_S50000x40_1_0_0_1_n_n_wf : DotDims.WF S50000x128 S128x40 S50000x40 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel's run with its result named.

  Every weakly fair execution of the program terminates without a fault, the argument arrays end as launched, and
  the result array ends at the contents the last segment boundary assigns it: the fold of the four host stretches
  and the four kernel regions from the launch memory, read at the result's buffer.  The argument is the frame's,
  with the result's buffer read off the final thread state beside the arguments'.
-/
import proofs.«168778_j44289702756626_1_alg».proof.Proof.PatchedKernelIdealFrame

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_result : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.Dense.lean ====
/-
  The dense stages of a two-layer message-passing network, as functions on the extended reals, index by index.

  An affine map sends a matrix X [n, k], a weight matrix W [k, c] and a bias row b [1, c] to the matrix whose entry
  (p, q) is the dot product of row p of X with column q of W plus b's entry q; a combine layer adds two such
  products (the node's own features against the upper half of a weight matrix, the aggregated messages against the
  lower half) before the bias; a rectified stage takes the maximum with zero.  The pieces of the weight stack a layer
  reads are named here too: a row band of one matrix of a stack [L, K, C], one row of a bias table [L, C], and a
  vector laid as a one-row matrix.
-/
import Idealize.ShloMosaic.Lib.ValueIdx
import Idealize.ShloMosaic.PureOps.Ideal.Laws

noncomputable section

namespace Cert.Dense

open Idealize.ShloMosaic Idealize.ShloMosaic.ValueIdx

/-- Entry (p, q) of X·W + b. -/
def linAt {n k c : ℕ} (X : (⟨2, ![n, k]⟩ : Shape).Idx → EReal) (W : (⟨2, ![k, c]⟩ : Shape).Idx → EReal)
    (b : (⟨2, ![1, c]⟩ : Shape).Idx → EReal) (p : Fin n) (q : Fin c) : EReal :=
  (∑ t : Fin k, X (ix2 p t) * W (ix2 t q)) + b (ix2 (0 : Fin 1) q)

/-- X·W + b as a matrix. -/
def lin {n k c : ℕ} (X : (⟨2, ![n, k]⟩ : Shape).Idx → EReal) (W : (⟨2, ![k, c]⟩ : Shape).Idx → EReal)
    (b : (⟨2, ![1, c]⟩ : Shape).Idx → EReal) : (⟨2, ![n, c]⟩ : Shape).Idx → EReal :=
  fun i => linAt X W b ⟨(i 0).val, idx2_lt0 i⟩ ⟨(i 1).val, idx2_lt1 i⟩

/-- max(X·W + b, 0) as a matrix. -/
def linRelu {n k c : ℕ} (X : (⟨2, ![n, k]⟩ : Shape).Idx → EReal) (W : (⟨2, ![k, c]⟩ : Shape).Idx → EReal)
    (b : (⟨2, ![1, c]⟩ : Shape).Idx → EReal) : (⟨2, ![n, c]⟩ : Shape).Idx → EReal :=
  fun i => max (linAt X W b ⟨(i 0).val, idx2_lt0 i⟩ ⟨(i 1).val, idx2_lt1 i⟩) 0

/-- Entry (p, q) of H·Wh + M·Wm + b. -/
def dualAt {n k c : ℕ} (H : (⟨2, ![n, k]⟩ : Shape).Idx → EReal) (Wh : (⟨2, ![k, c]⟩ : Shape).Idx → EReal)
    (M : (⟨2, ![n, k]⟩ : Shape).Idx → EReal) (Wm : (⟨2, ![k, c]⟩ : Shape).Idx → EReal)
    (b : (⟨2, ![1, c]⟩ : Shape).Idx → EReal) (p : Fin n) (q : Fin c) : EReal :=
  ((∑ t : Fin k, H (ix2 p t) * Wh (ix2 t q)) + (∑ t : Fin k, M (ix2 p t) * Wm (ix2 t q))) + b (ix2 (0 : Fin 1) q)

/-- max(H·Wh + M·Wm + b, 0) as a matrix. -/
def dualRelu {n k c : ℕ} (H : (⟨2, ![n, k]⟩ : Shape).Idx → EReal) (Wh : (⟨2, ![k, c]⟩ : Shape).Idx → EReal)
    (M : (⟨2, ![n, k]⟩ : Shape).Idx → EReal) (Wm : (⟨2, ![k, c]⟩ : Shape).Idx → EReal)
    (b : (⟨2, ![1, c]⟩ : Shape).Idx → EReal) : (⟨2, ![n, c]⟩ : Shape).Idx → EReal :=
  fun i => max (dualAt H Wh M Wm b ⟨(i 0).val, idx2_lt0 i⟩ ⟨(i 1).val, idx2_lt1 i⟩) 0

theorem lin_apply {n k c : ℕ} (X : (⟨2, ![n, k]⟩ : Shape).Idx → EReal) (W : (⟨2, ![k, c]⟩ : Shape).Idx → EReal)
    (b : (⟨2, ![1, c]⟩ : Shape).Idx → EReal) (p : Fin n) (q : Fin c) : lin X W b (ix2 p q) = linAt X W b p q := rfl

theorem linRelu_apply {n k c : ℕ} (X : (⟨2, ![n, k]⟩ : Shape).Idx → EReal) (W : (⟨2, ![k, c]⟩ : Shape).Idx → EReal)
    (b : (⟨2, ![1, c]⟩ : Shape).Idx → EReal) (p : Fin n) (q : Fin c) :
    linRelu X W b (ix2 p q) = max (linAt X W b p q) 0 := rfl

theorem dualRelu_apply {n k c : ℕ} (H : (⟨2, ![n, k]⟩ : Shape).Idx → EReal) (Wh : (⟨2, ![k, c]⟩ : Shape).Idx → EReal)
    (M : (⟨2, ![n, k]⟩ : Shape).Idx → EReal) (Wm : (⟨2, ![k, c]⟩ : Shape).Idx → EReal)
    (b : (⟨2, ![1, c]⟩ : Shape).Idx → EReal) (p : Fin n) (q : Fin c) :
    dualRelu H Wh M Wm b (ix2 p q) = max (dualAt H Wh M Wm b p q) 0 := rfl

/-- A vector of length c laid as the one-row matrix [1, c]. -/
def row {c : ℕ} (b : (⟨1, ![c]⟩ : Shape).Idx → EReal) : (⟨2, ![1, c]⟩ : Shape).Idx → EReal :=
  fun i => b (ix1 ⟨(i 1).val, idx2_lt1 i⟩)

theorem row_apply {c : ℕ} (b : (⟨1, ![c]⟩ : Shape).Idx → EReal) (z : Fin 1) (q : Fin c) : row b (ix2 z q) = b (ix1 q) := rfl

/-- Row l of a bias table [L, c], as the one-row matrix [1, c]. -/
def brow {L c : ℕ} (b : (⟨2, ![L, c]⟩ : Shape).Idx → EReal) (l : Fin L) : (⟨2, ![1, c]⟩ : Shape).Idx → EReal :=
  fun i => b (ix2 l ⟨(i 1).val, idx2_lt1 i⟩)

theorem brow_apply {L c : ℕ} (b : (⟨2, ![L, c]⟩ : Shape).Idx → EReal) (l : Fin L) (z : Fin 1) (q : Fin c) :
    brow b l (ix2 z q) = b (ix2 l q) := rfl

/-- The band of k rows starting at row o of matrix l of a stack [L, K, c], as the matrix [k, c]. -/
def wband {L K c : ℕ} (k o : ℕ) (ho : o + k ≤ K) (W : (⟨3, ![L, K, c]⟩ : Shape).Idx → EReal) (l : Fin L) :
    (⟨2, ![k, c]⟩ : Shape).Idx → EReal :=
  fun i => W (ix3 l ⟨o + (i 0).val, by have := idx2_lt0 i; omega⟩ ⟨(i 1).val, idx2_lt1 i⟩)

theorem wband_apply {L K c : ℕ} (k o : ℕ) (ho : o + k ≤ K) (W : (⟨3, ![L, K, c]⟩ : Shape).Idx → EReal) (l : Fin L)
    (t : Fin k) (q : Fin c) : wband k o ho W l (ix2 t q) = W (ix3 l ⟨o + t.val, by have := t.isLt; omega⟩ q) := rfl

end Cert.Dense

end
-- ==== Proof.DenseNet.lean ====
/-
  The whole network as one function of its arguments, parametric in the neighbourhood aggregation.

  With agg the map that sends node features to the aggregated messages (a gather along the edges, a scatter-add to
  the destinations and a division by the in-degree; here just a function), the network is
    h0 = max(X·W_in + b_in, 0),
    h1 = max(h0·W_0[0:128] + agg h0·W_0[128:256] + b_0, 0),
    h2 = max(h1·W_1[0:128] + agg h1·W_1[128:256] + b_1, 0),
    out = h2·W_out + b_out,
  every product, sum and maximum taken on the extended reals.
-/
import proofs.«168778_j44289702756626_1_alg».proof.Proof.Dense

noncomputable section

namespace Cert.Dense

open Idealize.ShloMosaic

/-- The network's output [50000, 40] from node features [50000, 128], the input weights [128, 128] and bias [128],
    the stack of combine weights [2, 256, 128] and biases [2, 128], and the output weights [128, 40] and bias [40]. -/
def net (agg : ((⟨2, ![50000, 128]⟩ : Shape).Idx → EReal) → ((⟨2, ![50000, 128]⟩ : Shape).Idx → EReal))
    (X : (⟨2, ![50000, 128]⟩ : Shape).Idx → EReal) (Win : (⟨2, ![128, 128]⟩ : Shape).Idx → EReal)
    (bin : (⟨1, ![128]⟩ : Shape).Idx → EReal) (Wc : (⟨3, ![2, 256, 128]⟩ : Shape).Idx → EReal)
    (bc : (⟨2, ![2, 128]⟩ : Shape).Idx → EReal) (Wout : (⟨2, ![128, 40]⟩ : Shape).Idx → EReal)
    (bout : (⟨1, ![40]⟩ : Shape).Idx → EReal) : (⟨2, ![50000, 40]⟩ : Shape).Idx → EReal :=
  lin
    (dualRelu
      (dualRelu (linRelu X Win (row bin)) (wband 128 0 (by norm_num) Wc 0) (agg (linRelu X Win (row bin)))
        (wband 128 128 (by norm_num) Wc 0) (brow bc 0))
      (wband 128 0 (by norm_num) Wc 1)
      (agg (dualRelu (linRelu X Win (row bin)) (wband 128 0 (by norm_num) Wc 0) (agg (linRelu X Win (row bin)))
        (wband 128 128 (by norm_num) Wc 0) (brow bc 0)))
      (wband 128 128 (by norm_num) Wc 1) (brow bc 1))
    Wout (row bout)

end Cert.Dense

end
-- ==== Proof.KernelLayout.lean ====
/-
  The pieces of the weight stack and of the bias vectors that the kernel program lays out on the host, each as a
  piece of the specification.

  A bias vector of length c re-laid as the one-row array [1, c] keeps its entries in order: entry (0, q) is the
  vector's entry q.  The band of 128 rows starting at row o of matrix l of the stack [2, 256, 128], cut out as
  [1, 128, 128] and re-laid as [128, 128], has at (t, q) the stack's entry (l, o + t, q): the cut adds its offsets
  coordinate by coordinate, and dropping the leading unit axis keeps the row-major order.  Row l of the bias table
  [2, 128], cut out as [1, 128], flattened to a vector and laid again as one row, has at (0, q) the table's entry (l, q).
-/
import proofs.«168778_j44289702756626_1_alg».proof.KernelIdeal
import proofs.«168778_j44289702756626_1_alg».proof.Proof.Dense
import Idealize.ShloMosaic.Lib.Pipeline.Value
import Idealize.ShloMosaic.Lib.ValueIdx
import Idealize.ShloMosaic.Lib.ValueLayout

noncomputable section

namespace Cert.KernelIdeal.Layout

open Cert.KernelIdeal Idealize.ShloMosaic Idealize.ShloMosaic.ValueIdx

variable [Facts₀]
open Facts₀

/-- A vector of length 128 laid as one row: entry (0, q) is the vector's entry q. -/
theorem bias_row128 (b : FVec Ideal S128 .f32) : shapeCast _ b shapeCasts_S128_S1x128 = Cert.Dense.row b := by
  funext i
  obtain ⟨z, q, rfl⟩ : ∃ (z : Fin 1) (q : Fin 128), i = ValueIdx.ix2 z q := ⟨i 0, i 1, ValueIdx.eq_ix2 i⟩
  rw [Cert.Dense.row_apply]
  exact shapeCast_a_1a_apply b shapeCasts_S128_S1x128 z q

/-- A vector of length 40 laid as one row: entry (0, q) is the vector's entry q. -/
theorem bias_row40 (b : FVec Ideal S40 .f32) : shapeCast _ b shapeCasts_S40_S1x40 = Cert.Dense.row b := by
  funext i
  obtain ⟨z, q, rfl⟩ : ∃ (z : Fin 1) (q : Fin 40), i = ValueIdx.ix2 z q := ⟨i 0, i 1, ValueIdx.eq_ix2 i⟩
  rw [Cert.Dense.row_apply]
  exact shapeCast_a_1a_apply b shapeCasts_S40_S1x40 z q

/-- The band of 128 rows from row o of matrix l of the stack, cut out and re-laid as a matrix: entry (t, q) is the
    stack's entry (l, o + t, q). -/
theorem band_of_stack (l o : ℕ) (hl : l < 2) (ho : o + 128 ≤ 256) (W : FVec Ideal S2x256x128 .f32)
    (hs : S2x256x128.Slices ![l, o, 0] S1x128x128) (hc : S1x128x128.ShapeCasts S128x128) :
    shapeCast S128x128 (extractStridedSlice S1x128x128 ![l, o, 0] W hs) hc = Cert.Dense.wband 128 o ho W ⟨l, hl⟩ := by
  funext i
  obtain ⟨t, q, rfl⟩ : ∃ (t : Fin 128) (q : Fin 128), i = ValueIdx.ix2 t q := ⟨i 0, i 1, ValueIdx.eq_ix2 i⟩
  rw [shapeCast_1ab_ab_apply, Cert.Dense.wband_apply]
  exact extractStridedSlice_apply ![l, o, 0] W hs (ix3 (0 : Fin 1) t q)
    (ix3 (⟨l, hl⟩ : Fin 2) (⟨o + t.val, by have := t.isLt; omega⟩ : Fin 256) q) (fun a => match a with
    | ⟨0, _⟩ => rfl
    | ⟨1, _⟩ => rfl
    | ⟨2, _⟩ => by show q.val = 0 + q.val; omega)

theorem band_0_0 (W : FVec Ideal S2x256x128 .f32) :
    shapeCast _ (extractStridedSlice S1x128x128 ![0, 0, 0] W slices_S2x256x128_S1x128x128_0_0_0) shapeCasts_S1x128x128_S128x128
      = Cert.Dense.wband 128 0 (by norm_num) W 0 :=
  band_of_stack 0 0 (by norm_num) (by norm_num) W slices_S2x256x128_S1x128x128_0_0_0 shapeCasts_S1x128x128_S128x128

theorem band_0_128 (W : FVec Ideal S2x256x128 .f32) :
    shapeCast _ (extractStridedSlice S1x128x128 ![0, 128, 0] W slices_S2x256x128_S1x128x128_0_128_0) shapeCasts_S1x128x128_S128x128
      = Cert.Dense.wband 128 128 (by norm_num) W 0 :=
  band_of_stack 0 128 (by norm_num) (by norm_num) W slices_S2x256x128_S1x128x128_0_128_0 shapeCasts_S1x128x128_S128x128

theorem band_1_0 (W : FVec Ideal S2x256x128 .f32) :
    shapeCast _ (extractStridedSlice S1x128x128 ![1, 0, 0] W slices_S2x256x128_S1x128x128_1_0_0) shapeCasts_S1x128x128_S128x128
      = Cert.Dense.wband 128 0 (by norm_num) W 1 :=
  band_of_stack 1 0 (by norm_num) (by norm_num) W slices_S2x256x128_S1x128x128_1_0_0 shapeCasts_S1x128x128_S128x128

theorem band_1_128 (W : FVec Ideal S2x256x128 .f32) :
    shapeCast _ (extractStridedSlice S1x128x128 ![1, 128, 0] W slices_S2x256x128_S1x128x128_1_128_0) shapeCasts_S1x128x128_S128x128
      = Cert.Dense.wband 128 128 (by norm_num) W 1 :=
  band_of_stack 1 128 (by norm_num) (by norm_num) W slices_S2x256x128_S1x128x128_1_128_0 shapeCasts_S1x128x128_S128x128

/-- Row l of the bias table, cut out, flattened and laid again as one row: entry (0, q) is the table's entry (l, q). -/
theorem row_of_table (l : ℕ) (hl : l < 2) (b : FVec Ideal S2x128 .f32) (hs : S2x128.Slices ![l, 0] S1x128)
    (hc : S1x128.ShapeCasts S128) (hr : S128.ShapeCasts S1x128) :
    shapeCast S1x128 (shapeCast S128 (extractStridedSlice S1x128 ![l, 0] b hs) hc) hr = Cert.Dense.brow b ⟨l, hl⟩ := by
  funext i
  obtain ⟨z, q, rfl⟩ : ∃ (z : Fin 1) (q : Fin 128), i = ValueIdx.ix2 z q := ⟨i 0, i 1, ValueIdx.eq_ix2 i⟩
  rw [shapeCast_a_1a_apply, shapeCast_1a_a_apply, Cert.Dense.brow_apply]
  exact extractStridedSlice_apply ![l, 0] b hs (ix2 (0 : Fin 1) q) (ix2 (⟨l, hl⟩ : Fin 2) q) (fun a => match a with
    | ⟨0, _⟩ => rfl
    | ⟨1, _⟩ => by show q.val = 0 + q.val; omega)

theorem brow_0 (b : FVec Ideal S2x128 .f32) :
    shapeCast _ (shapeCast _ (extractStridedSlice S1x128 ![0, 0] b slices_S2x128_S1x128_0_0) shapeCasts_S1x128_S128) shapeCasts_S128_S1x128
      = Cert.Dense.brow b 0 :=
  row_of_table 0 (by norm_num) b slices_S2x128_S1x128_0_0 shapeCasts_S1x128_S128 shapeCasts_S128_S1x128

theorem brow_1 (b : FVec Ideal S2x128 .f32) :
    shapeCast _ (shapeCast _ (extractStridedSlice S1x128 ![1, 0] b slices_S2x128_S1x128_1_0) shapeCasts_S1x128_S128) shapeCasts_S128_S1x128
      = Cert.Dense.brow b 1 :=
  row_of_table 1 (by norm_num) b slices_S2x128_S1x128_1_0 shapeCasts_S1x128_S128 shapeCasts_S128_S1x128

end Cert.KernelIdeal.Layout

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.Region0.lean ====
/-
  The first dense stage of the network, as one function of its three input arrays.

  The stage runs over 25 blocks of 2000 rows of the node-feature matrix X [50000, 128]. At block i it holds rows
  2000 i … 2000 i + 1999 of X, the whole weight matrix W [128, 128] and the whole bias row b [1, 128], and writes
  rows 2000 i … 2000 i + 1999 of the result. Entry (p, q) of the written block is
  max (∑ t, X (2000 i + p, t) · W (t, q) + b (0, q), 0): it depends on one row of the input block, one column of the
  weight matrix and one bias entry. The 25 row blocks tile the 50000 rows (row r lies in block r / 2000), so after
  the stage the result array is max (X·W + b, 0) at every index.
-/
import proofs.«168778_j44289702756626_1_alg».proof.Proof.PatchedKernelIdealFrame
import proofs.«168778_j44289702756626_1_alg».proof.Proof.Dense
import proofs.«168778_j44289702756626_1_alg».proof.Proof.LibPlainProduct
import Idealize.ShloMosaic.Lib.Pipeline.Value
import Idealize.ShloMosaic.Lib.ValueLayout

noncomputable section

namespace Cert.KernelIdeal.Region0

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-- The zero offsets of a whole-block access. -/
theorem hz : (![0, 0] : Fin 2 → Nat) = fun _ => 0 := funext fun a => by fin_cases a <;> rfl

/-! ## The stored block at an index -/

/-- Entry (p, q) of the stored block: the dot product of row p of the loaded row block with column q of the loaded
    weight matrix, plus the bias row's entry q, cut off below at zero. -/
theorem pay_apply (x0 : Vec Ideal S2000x128 .f32) (x1 : Vec Ideal S128x128 .f32) (x2 : Vec Ideal S1x128 .f32)
    (p : Fin 2000) (q : Fin 128) :
    k0_pay1 (F := Ideal) x0 x1 x2 (ix2 p q)
      = max ((∑ t : Fin 128, x0 (ix2 p t) * x1 (ix2 t q)) + x2 (ix2 (0 : Fin 1) q)) 0 := by
  unfold k0_pay1
  refine (maximumf_apply _ _ _).trans ?_
  refine congrArg₂ max ?_ ?_
  · refine (addf_apply _ _ _).trans ?_
    refine congrArg₂ (· + ·) ?_ ?_
    · exact matmul_zero_plain_apply dot_S2000x128_S128x128_S2000x128_1_0_0_1_n_n rfl rfl rfl rfl rfl rfl none _ _ p q
    · exact (broadcastTo_1b_ab_apply _ _ p q).trans (congrFun (shapeCast_self x2 _) _)
  · exact Ideal.ofBits_zero_f32

/-- The same entry when row p of the loaded row block is row r of a matrix X and the other two loaded blocks are the
    whole weight matrix and the whole bias row: entry (r, q) of max (X·W + b, 0). -/
theorem pay_eq_linRelu (X : S50000x128.Idx → EReal) (W : S128x128.Idx → EReal) (b : S1x128.Idx → EReal)
    (x0 : Vec Ideal S2000x128 .f32) (x1 : Vec Ideal S128x128 .f32) (x2 : Vec Ideal S1x128 .f32)
    (r : Fin 50000) (p : Fin 2000) (q : Fin 128)
    (h0 : ∀ s : Fin 128, x0 (ix2 p s) = X (ix2 r s)) (h1 : x1 = W) (h2 : x2 = b) :
    k0_pay1 (F := Ideal) x0 x1 x2 (ix2 p q) = Cert.Dense.linRelu X W b (ix2 r q) := by
  subst h1 h2
  rw [pay_apply, Cert.Dense.linRelu_apply]
  unfold Cert.Dense.linAt
  refine congrArg₂ max (congrArg₂ (· + ·) (Finset.sum_congr rfl fun s _ => ?_) rfl) rfl
  rw [h0 s]

/-! ## The blocks of the windows at a point -/

/-- The index maps over the 25 points: the row-block index of the input rows is the output's and equals the point's
    number; every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row p of the input row block at point t is row 2000 t + p of the feature matrix. -/
theorem blk0_apply (c : Dev nD) (t : Fin cfg0.N) (p : Fin 2000) (s : Fin 128) (r : Fin 50000)
    (hr : r.val = t.val * 2000 + p.val) :
    (iblk0 V c 0 t : Vec Ideal S2000x128 .f32) (ix2 p s) = (V c main_arg0 : S50000x128.Idx → EReal) (ix2 r s) := by
  obtain ⟨e0, e1, -⟩ := idx_facts t
  show V c main_arg0 (((cfg0.win 0).blk t).view.emb (ix2 p s)) = _
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * s.val = s.val; omega

/-- The weight window's block at every point is the whole weight matrix. -/
theorem blk1_eq (c : Dev nD) (t : Fin cfg0.N) :
    (iblk0 V c 1 t : Vec Ideal S128x128 .f32) = (V c main_arg2 : S128x128.Idx → EReal) := by
  obtain ⟨-, -, e2, e3, -⟩ := idx_facts t
  funext y
  show V c main_arg2 (((cfg0.win 1).blk t).view.emb y) = _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias window's block at every point is the whole bias row. -/
theorem blk2_eq (c : Dev nD) (t : Fin cfg0.N) :
    (iblk0 V c 2 t : Vec Ideal S1x128 .f32) = (V c main_v4 : S1x128.Idx → EReal) := by
  obtain ⟨-, -, -, -, e4, e5, -⟩ := idx_facts t
  funext y
  show V c main_v4 (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-! ## What a point writes back -/

/-- Point t writes back block t of max (X·W + b, 0) of the three input arrays as the stage finds them. -/
theorem flushed_eq (c : Dev nD) (t : Fin cfg0.N) :
    (dat0 (F := Ideal) V c).flushed 3 t
      = ((cfg0.win 3).blk t).view.read (Elt Ideal) (Cert.Dense.linRelu (V c main_arg0) (V c main_arg2) (V c main_v4)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  obtain ⟨-, -, -, -, -, -, e6, e7⟩ := idx_facts t
  have ht : t.val < 25 := t.isLt
  funext j
  obtain ⟨p, q, rfl⟩ : ∃ (p : Fin 2000) (q : Fin 128), j = ix2 p q := ⟨j 0, j 1, eq_ix2 j⟩
  have hp : p.val < 2000 := p.isLt
  refine (pay_eq_linRelu (V c main_arg0) (V c main_arg2) (V c main_v4) _ _ _ ⟨t.val * 2000 + p.val, by omega⟩ p q
    (fun s => blk0_apply V c t p s _ rfl) (blk1_eq V c t) (blk2_eq V c t)).trans ?_
  show Cert.Dense.linRelu (V c main_arg0) (V c main_arg2) (V c main_v4) _
    = Cert.Dense.linRelu (V c main_arg0) (V c main_arg2) (V c main_v4) (((cfg0.win 3).blk t).view.emb (ix2 p q))
  refine congrArg _ (funext fun a => Fin.ext ?_)
  match a with
  | ⟨0, _⟩ => show t.val * 2000 + p.val = win0_3.index t (0 : Fin 2) * 2000 + 1 * p.val; omega
  | ⟨1, _⟩ => show q.val = win0_3.index t (1 : Fin 2) * 128 + 1 * q.val; omega

/-! ## The blocks tile the array -/

/-- An index of the result array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v5).slice (win0_3.rect t)).set ↔ _
  rw [View.set_slice_whole, Rect.mem_set_unit]
  exact Iff.rfl

/-- Row r of the result array is in the block of point r / 2000. -/
theorem cover (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  have hN : (i 0).val / 2000 < cfg0.N := by show _ < 25; omega
  obtain ⟨-, -, -, -, -, -, e6, e7⟩ := idx_facts ⟨(i 0).val / 2000, hN⟩
  have e6' : win0_3.index ⟨(i 0).val / 2000, hN⟩ (0 : Fin 2) = (i 0).val / 2000 := e6
  refine ⟨⟨(i 0).val / 2000, hN⟩, flush0_3 _, ?_⟩
  rw [mem_blk]
  intro a
  match a with
  | ⟨0, _⟩ =>
    show win0_3.index ⟨(i 0).val / 2000, hN⟩ (0 : Fin 2) * 2000 ≤ (i 0).val
      ∧ (i 0).val < win0_3.index ⟨(i 0).val / 2000, hN⟩ (0 : Fin 2) * 2000 + 2000
    omega
  | ⟨1, _⟩ =>
    show win0_3.index ⟨(i 0).val / 2000, hN⟩ (1 : Fin 2) * 128 ≤ (i 1).val
      ∧ (i 1).val < win0_3.index ⟨(i 0).val / 2000, hN⟩ (1 : Fin 2) * 128 + 128
    omega

/-! ## The array after the stage -/

/-- After the stage the result array is max (X·W + b, 0) of the three input arrays as the stage finds them. -/
theorem final (c : Dev nD) :
    (dat0 (F := Ideal) V c).arrAt 3 cfg0.N = Cert.Dense.linRelu (V c main_arg0) (V c main_arg2) (V c main_v4) :=
  (dat0 (F := Ideal) V c).arrAt_eq_of_cover 3 _ (fun t _ => flushed_eq V c t) cover

end Cert.KernelIdeal.Region0

end
-- ==== Proof.Region1.lean ====
/-
  The first combine layer of the network, as one function of its five input arrays.

  The layer runs over 25 blocks of 2000 rows. At block i it holds rows 2000 i … 2000 i + 1999 of the node-state matrix
  H [50000, 128] and of the aggregated-message matrix M [50000, 128], the two whole weight matrices Wh and Wm
  [128, 128] and the whole bias row b [1, 128], and writes rows 2000 i … 2000 i + 1999 of the result. Entry (p, q) of
  the written block is max (∑ t, H (2000 i + p, t) · Wh (t, q) + ∑ t, M (2000 i + p, t) · Wm (t, q) + b (0, q), 0): it
  depends on one row of each of the two input blocks, one column of each weight matrix and one bias entry. The 25 row
  blocks tile the 50000 rows (row r lies in block r / 2000), so after the layer the result array is
  max (H·Wh + M·Wm + b, 0) at every index.
-/
import proofs.«168778_j44289702756626_1_alg».proof.Proof.PatchedKernelIdealFrame
import proofs.«168778_j44289702756626_1_alg».proof.Proof.Dense
import proofs.«168778_j44289702756626_1_alg».proof.Proof.LibPlainProduct
import Idealize.ShloMosaic.Lib.Pipeline.Value
import Idealize.ShloMosaic.Lib.ValueLayout

noncomputable section

namespace Cert.KernelIdeal.Region1

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-- The zero offsets of a whole-block access. -/
theorem hz : (![0, 0] : Fin 2 → Nat) = fun _ => 0 := funext fun a => by fin_cases a <;> rfl

/-! ## The stored block at an index -/

/-- Entry (p, q) of the stored block: the dot product of row p of the loaded state rows with column q of the first
    weight matrix, plus the dot product of row p of the loaded message rows with column q of the second weight matrix,
    plus the bias row's entry q, cut off below at zero. -/
theorem pay_apply (x0 : Vec Ideal S2000x128 .f32) (x1 : Vec Ideal S128x128 .f32) (x2 : Vec Ideal S2000x128 .f32)
    (x3 : Vec Ideal S128x128 .f32) (x4 : Vec Ideal S1x128 .f32) (p : Fin 2000) (q : Fin 128) :
    k1_pay1 (F := Ideal) x0 x1 x2 x3 x4 (ix2 p q)
      = max (((∑ t : Fin 128, x0 (ix2 p t) * x1 (ix2 t q)) + (∑ t : Fin 128, x2 (ix2 p t) * x3 (ix2 t q)))
          + x4 (ix2 (0 : Fin 1) q)) 0 := by
  unfold k1_pay1
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · refine (matmul_zero_plain_apply dot_S2000x128_S128x128_S2000x128_1_0_0_1_n_n rfl rfl rfl rfl rfl rfl none _ _ p q).trans ?_
        rw [shapeCast_self, shapeCast_self]
        rfl
      · refine (matmul_zero_plain_apply dot_S2000x128_S128x128_S2000x128_1_0_0_1_n_n rfl rfl rfl rfl rfl rfl none _ _ p q).trans ?_
        rw [shapeCast_self, shapeCast_self]
        rfl
    · exact (broadcastTo_1b_ab_apply _ _ p q).trans (congrFun (shapeCast_self x4 _) _)
  · exact Ideal.ofBits_zero_f32

/-- The same entry when row p of the two loaded row blocks is row r of matrices H and M and the other three loaded
    blocks are the two whole weight matrices and the whole bias row: entry (r, q) of max (H·Wh + M·Wm + b, 0). -/
theorem pay_eq_dualRelu (H : S50000x128.Idx → EReal) (Wh : S128x128.Idx → EReal) (M : S50000x128.Idx → EReal)
    (Wm : S128x128.Idx → EReal) (b : S1x128.Idx → EReal)
    (x0 : Vec Ideal S2000x128 .f32) (x1 : Vec Ideal S128x128 .f32) (x2 : Vec Ideal S2000x128 .f32)
    (x3 : Vec Ideal S128x128 .f32) (x4 : Vec Ideal S1x128 .f32)
    (r : Fin 50000) (p : Fin 2000) (q : Fin 128)
    (h0 : ∀ s : Fin 128, x0 (ix2 p s) = H (ix2 r s)) (h1 : x1 = Wh)
    (h2 : ∀ s : Fin 128, x2 (ix2 p s) = M (ix2 r s)) (h3 : x3 = Wm) (h4 : x4 = b) :
    k1_pay1 (F := Ideal) x0 x1 x2 x3 x4 (ix2 p q) = Cert.Dense.dualRelu H Wh M Wm b (ix2 r q) := by
  subst h1 h3 h4
  rw [pay_apply, Cert.Dense.dualRelu_apply]
  unfold Cert.Dense.dualAt
  refine congrArg₂ max (congrArg₂ (· + ·) (congrArg₂ (· + ·) (Finset.sum_congr rfl fun s _ => ?_)
    (Finset.sum_congr rfl fun s _ => ?_)) rfl) rfl
  · rw [h0 s]
  · rw [h2 s]

/-! ## The blocks of the windows at a point -/

/-- The index maps over the 25 points: the row-block index of the state rows and of the message rows is the output's
    and equals the point's number; every other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row p of the state row block at point t is row 2000 t + p of the state matrix. -/
theorem blk0_apply (c : Dev nD) (t : Fin cfg1.N) (p : Fin 2000) (s : Fin 128) (r : Fin 50000)
    (hr : r.val = t.val * 2000 + p.val) :
    (iblk1 V c 0 t : Vec Ideal S2000x128 .f32) (ix2 p s) = (V c main_v5 : S50000x128.Idx → EReal) (ix2 r s) := by
  obtain ⟨e0, e1, -⟩ := idx_facts t
  show V c main_v5 (((cfg1.win 0).blk t).view.emb (ix2 p s)) = _
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * s.val = s.val; omega

/-- The first weight window's block at every point is the whole first weight matrix. -/
theorem blk1_eq (c : Dev nD) (t : Fin cfg1.N) :
    (iblk1 V c 1 t : Vec Ideal S128x128 .f32) = (V c main_v28 : S128x128.Idx → EReal) := by
  obtain ⟨-, -, e2, e3, -⟩ := idx_facts t
  funext y
  show V c main_v28 (((cfg1.win 1).blk t).view.emb y) = _
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- Row p of the message row block at point t is row 2000 t + p of the message matrix. -/
theorem blk2_apply (c : Dev nD) (t : Fin cfg1.N) (p : Fin 2000) (s : Fin 128) (r : Fin 50000)
    (hr : r.val = t.val * 2000 + p.val) :
    (iblk1 V c 2 t : Vec Ideal S2000x128 .f32) (ix2 p s) = (V c main_v26 : S50000x128.Idx → EReal) (ix2 r s) := by
  obtain ⟨-, -, -, -, e4, e5, -⟩ := idx_facts t
  show V c main_v26 (((cfg1.win 2).blk t).view.emb (ix2 p s)) = _
  refine congrArg _ (funext fun a => Fin.ext ?_)
  match a with
  | ⟨0, _⟩ => show win1_2.index t (0 : Fin 2) * 2000 + 1 * p.val = r.val; omega
  | ⟨1, _⟩ => show win1_2.index t (1 : Fin 2) * 128 + 1 * s.val = s.val; omega

/-- The second weight window's block at every point is the whole second weight matrix. -/
theorem blk3_eq (c : Dev nD) (t : Fin cfg1.N) :
    (iblk1 V c 3 t : Vec Ideal S128x128 .f32) = (V c main_v30 : S128x128.Idx → EReal) := by
  obtain ⟨-, -, -, -, -, -, e6, e7, -⟩ := idx_facts t
  funext y
  show V c main_v30 (((cfg1.win 3).blk t).view.emb y) = _
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias window's block at every point is the whole bias row. -/
theorem blk4_eq (c : Dev nD) (t : Fin cfg1.N) :
    (iblk1 V c 4 t : Vec Ideal S1x128 .f32) = (V c main_v33 : S1x128.Idx → EReal) := by
  obtain ⟨-, -, -, -, -, -, -, -, e8, e9, -⟩ := idx_facts t
  funext y
  show V c main_v33 (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-! ## What a point writes back -/

/-- Point t writes back block t of max (H·Wh + M·Wm + b, 0) of the five input arrays as the stage finds them. -/
theorem flushed_eq (c : Dev nD) (t : Fin cfg1.N) :
    (dat1 (F := Ideal) V c).flushed 5 t
      = ((cfg1.win 5).blk t).view.read (Elt Ideal)
          (Cert.Dense.dualRelu (V c main_v5) (V c main_v28) (V c main_v26) (V c main_v30) (V c main_v33)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨-, -, -, -, -, -, -, -, -, -, e10, e11⟩ := idx_facts t
  have ht : t.val < 25 := t.isLt
  funext j
  obtain ⟨p, q, rfl⟩ : ∃ (p : Fin 2000) (q : Fin 128), j = ix2 p q := ⟨j 0, j 1, eq_ix2 j⟩
  have hp : p.val < 2000 := p.isLt
  refine (pay_eq_dualRelu (V c main_v5) (V c main_v28) (V c main_v26) (V c main_v30) (V c main_v33) _ _ _ _ _
    ⟨t.val * 2000 + p.val, by omega⟩ p q
    (fun s => blk0_apply V c t p s _ rfl) (blk1_eq V c t) (fun s => blk2_apply V c t p s _ rfl) (blk3_eq V c t)
    (blk4_eq V c t)).trans ?_
  show Cert.Dense.dualRelu (V c main_v5) (V c main_v28) (V c main_v26) (V c main_v30) (V c main_v33) _
    = Cert.Dense.dualRelu (V c main_v5) (V c main_v28) (V c main_v26) (V c main_v30) (V c main_v33)
        (((cfg1.win 5).blk t).view.emb (ix2 p q))
  refine congrArg _ (funext fun a => Fin.ext ?_)
  match a with
  | ⟨0, _⟩ => show t.val * 2000 + p.val = win1_5.index t (0 : Fin 2) * 2000 + 1 * p.val; omega
  | ⟨1, _⟩ => show q.val = win1_5.index t (1 : Fin 2) * 128 + 1 * q.val; omega

/-! ## The blocks tile the array -/

/-- An index of the result array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v34).slice (win1_5.rect t)).set ↔ _
  rw [View.set_slice_whole, Rect.mem_set_unit]
  exact Iff.rfl

/-- Row r of the result array is in the block of point r / 2000. -/
theorem cover (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  have hN : (i 0).val / 2000 < cfg1.N := by show _ < 25; omega
  obtain ⟨-, -, -, -, -, -, -, -, -, -, e10, e11⟩ := idx_facts ⟨(i 0).val / 2000, hN⟩
  have e10' : win1_5.index ⟨(i 0).val / 2000, hN⟩ (0 : Fin 2) = (i 0).val / 2000 := e10
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val
      ∧ (i 0).val < win1_5.index ⟨(i 0).val / 2000, hN⟩ (0 : Fin 2) * 2000 + 2000
    omega
  | ⟨1, _⟩ =>
    show win1_5.index ⟨(i 0).val / 2000, hN⟩ (1 : Fin 2) * 128 ≤ (i 1).val
      ∧ (i 1).val < win1_5.index ⟨(i 0).val / 2000, hN⟩ (1 : Fin 2) * 128 + 128
    omega

/-! ## The array after the stage -/

/-- After the stage the result array is max (H·Wh + M·Wm + b, 0) of the five input arrays as the stage finds them. -/
theorem final (c : Dev nD) :
    (dat1 (F := Ideal) V c).arrAt 5 cfg1.N
      = Cert.Dense.dualRelu (V c main_v5) (V c main_v28) (V c main_v26) (V c main_v30) (V c main_v33) :=
  (dat1 (F := Ideal) V c).arrAt_eq_of_cover 5 _ (fun t _ => flushed_eq V c t) cover

end Cert.KernelIdeal.Region1

end
-- ==== Proof.Region2.lean ====
/-
  The second combine layer of the network, as one function of its five input arrays.

  The layer runs over 25 blocks of 2000 rows. At block i it holds rows 2000 i … 2000 i + 1999 of the node-state matrix
  H [50000, 128] and of the aggregated-message matrix M [50000, 128], the two whole weight matrices Wh and Wm
  [128, 128] and the whole bias row b [1, 128], and writes rows 2000 i … 2000 i + 1999 of the result. Entry (p, q) of
  the written block is max (∑ t, H (2000 i + p, t) · Wh (t, q) + ∑ t, M (2000 i + p, t) · Wm (t, q) + b (0, q), 0): it
  depends on one row of each of the two input blocks, one column of each weight matrix and one bias entry. The 25 row
  blocks tile the 50000 rows (row r lies in block r / 2000), so after the layer the result array is
  max (H·Wh + M·Wm + b, 0) at every index.
-/
import proofs.«168778_j44289702756626_1_alg».proof.Proof.PatchedKernelIdealFrame
import proofs.«168778_j44289702756626_1_alg».proof.Proof.Dense
import proofs.«168778_j44289702756626_1_alg».proof.Proof.LibPlainProduct
import Idealize.ShloMosaic.Lib.Pipeline.Value
import Idealize.ShloMosaic.Lib.ValueLayout

noncomputable section

namespace Cert.KernelIdeal.Region2

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-- The zero offsets of a whole-block access. -/
theorem hz : (![0, 0] : Fin 2 → Nat) = fun _ => 0 := funext fun a => by fin_cases a <;> rfl

/-! ## The stored block at an index -/

/-- Entry (p, q) of the stored block: the dot product of row p of the loaded state rows with column q of the first
    weight matrix, plus the dot product of row p of the loaded message rows with column q of the second weight matrix,
    plus the bias row's entry q, cut off below at zero. -/
theorem pay_apply (x0 : Vec Ideal S2000x128 .f32) (x1 : Vec Ideal S128x128 .f32) (x2 : Vec Ideal S2000x128 .f32)
    (x3 : Vec Ideal S128x128 .f32) (x4 : Vec Ideal S1x128 .f32) (p : Fin 2000) (q : Fin 128) :
    k2_pay1 (F := Ideal) x0 x1 x2 x3 x4 (ix2 p q)
      = max (((∑ t : Fin 128, x0 (ix2 p t) * x1 (ix2 t q)) + (∑ t : Fin 128, x2 (ix2 p t) * x3 (ix2 t q)))
          + x4 (ix2 (0 : Fin 1) q)) 0 := by
  unfold k2_pay1
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · refine (matmul_zero_plain_apply dot_S2000x128_S128x128_S2000x128_1_0_0_1_n_n rfl rfl rfl rfl rfl rfl none _ _ p q).trans ?_
        rw [shapeCast_self, shapeCast_self]
        rfl
      · refine (matmul_zero_plain_apply dot_S2000x128_S128x128_S2000x128_1_0_0_1_n_n rfl rfl rfl rfl rfl rfl none _ _ p q).trans ?_
        rw [shapeCast_self, shapeCast_self]
        rfl
    · exact (broadcastTo_1b_ab_apply _ _ p q).trans (congrFun (shapeCast_self x4 _) _)
  · exact Ideal.ofBits_zero_f32

/-- The same entry when row p of the two loaded row blocks is row r of matrices H and M and the other three loaded
    blocks are the two whole weight matrices and the whole bias row: entry (r, q) of max (H·Wh + M·Wm + b, 0). -/
theorem pay_eq_dualRelu (H : S50000x128.Idx → EReal) (Wh : S128x128.Idx → EReal) (M : S50000x128.Idx → EReal)
    (Wm : S128x128.Idx → EReal) (b : S1x128.Idx → EReal)
    (x0 : Vec Ideal S2000x128 .f32) (x1 : Vec Ideal S128x128 .f32) (x2 : Vec Ideal S2000x128 .f32)
    (x3 : Vec Ideal S128x128 .f32) (x4 : Vec Ideal S1x128 .f32)
    (r : Fin 50000) (p : Fin 2000) (q : Fin 128)
    (h0 : ∀ s : Fin 128, x0 (ix2 p s) = H (ix2 r s)) (h1 : x1 = Wh)
    (h2 : ∀ s : Fin 128, x2 (ix2 p s) = M (ix2 r s)) (h3 : x3 = Wm) (h4 : x4 = b) :
    k2_pay1 (F := Ideal) x0 x1 x2 x3 x4 (ix2 p q) = Cert.Dense.dualRelu H Wh M Wm b (ix2 r q) := by
  subst h1 h3 h4
  rw [pay_apply, Cert.Dense.dualRelu_apply]
  unfold Cert.Dense.dualAt
  refine congrArg₂ max (congrArg₂ (· + ·) (congrArg₂ (· + ·) (Finset.sum_congr rfl fun s _ => ?_)
    (Finset.sum_congr rfl fun s _ => ?_)) rfl) rfl
  · rw [h0 s]
  · rw [h2 s]

/-! ## The blocks of the windows at a point -/

/-- The index maps over the 25 points: the row-block index of the state rows and of the message rows is the output's
    and equals the point's number; every other block index is zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Row p of the state row block at point t is row 2000 t + p of the state matrix. -/
theorem blk0_apply (c : Dev nD) (t : Fin cfg2.N) (p : Fin 2000) (s : Fin 128) (r : Fin 50000)
    (hr : r.val = t.val * 2000 + p.val) :
    (iblk2 V c 0 t : Vec Ideal S2000x128 .f32) (ix2 p s) = (V c main_v34 : S50000x128.Idx → EReal) (ix2 r s) := by
  obtain ⟨e0, e1, -⟩ := idx_facts t
  show V c main_v34 (((cfg2.win 0).blk t).view.emb (ix2 p s)) = _
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * s.val = s.val; omega

/-- The first weight window's block at every point is the whole first weight matrix. -/
theorem blk1_eq (c : Dev nD) (t : Fin cfg2.N) :
    (iblk2 V c 1 t : Vec Ideal S128x128 .f32) = (V c main_v49 : S128x128.Idx → EReal) := by
  obtain ⟨-, -, e2, e3, -⟩ := idx_facts t
  funext y
  show V c main_v49 (((cfg2.win 1).blk t).view.emb y) = _
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Row p of the message row block at point t is row 2000 t + p of the message matrix. -/
theorem blk2_apply (c : Dev nD) (t : Fin cfg2.N) (p : Fin 2000) (s : Fin 128) (r : Fin 50000)
    (hr : r.val = t.val * 2000 + p.val) :
    (iblk2 V c 2 t : Vec Ideal S2000x128 .f32) (ix2 p s) = (V c main_v47 : S50000x128.Idx → EReal) (ix2 r s) := by
  obtain ⟨-, -, -, -, e4, e5, -⟩ := idx_facts t
  show V c main_v47 (((cfg2.win 2).blk t).view.emb (ix2 p s)) = _
  refine congrArg _ (funext fun a => Fin.ext ?_)
  match a with
  | ⟨0, _⟩ => show win2_2.index t (0 : Fin 2) * 2000 + 1 * p.val = r.val; omega
  | ⟨1, _⟩ => show win2_2.index t (1 : Fin 2) * 128 + 1 * s.val = s.val; omega

/-- The second weight window's block at every point is the whole second weight matrix. -/
theorem blk3_eq (c : Dev nD) (t : Fin cfg2.N) :
    (iblk2 V c 3 t : Vec Ideal S128x128 .f32) = (V c main_v51 : S128x128.Idx → EReal) := by
  obtain ⟨-, -, -, -, -, -, e6, e7, -⟩ := idx_facts t
  funext y
  show V c main_v51 (((cfg2.win 3).blk t).view.emb y) = _
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias window's block at every point is the whole bias row. -/
theorem blk4_eq (c : Dev nD) (t : Fin cfg2.N) :
    (iblk2 V c 4 t : Vec Ideal S1x128 .f32) = (V c main_v54 : S1x128.Idx → EReal) := by
  obtain ⟨-, -, -, -, -, -, -, -, e8, e9, -⟩ := idx_facts t
  funext y
  show V c main_v54 (((cfg2.win 4).blk t).view.emb y) = _
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-! ## What a point writes back -/

/-- Point t writes back block t of max (H·Wh + M·Wm + b, 0) of the five input arrays as the stage finds them. -/
theorem flushed_eq (c : Dev nD) (t : Fin cfg2.N) :
    (dat2 (F := Ideal) V c).flushed 5 t
      = ((cfg2.win 5).blk t).view.read (Elt Ideal)
          (Cert.Dense.dualRelu (V c main_v34) (V c main_v49) (V c main_v47) (V c main_v51) (V c main_v54)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  obtain ⟨-, -, -, -, -, -, -, -, -, -, e10, e11⟩ := idx_facts t
  have ht : t.val < 25 := t.isLt
  funext j
  obtain ⟨p, q, rfl⟩ : ∃ (p : Fin 2000) (q : Fin 128), j = ix2 p q := ⟨j 0, j 1, eq_ix2 j⟩
  have hp : p.val < 2000 := p.isLt
  refine (pay_eq_dualRelu (V c main_v34) (V c main_v49) (V c main_v47) (V c main_v51) (V c main_v54) _ _ _ _ _
    ⟨t.val * 2000 + p.val, by omega⟩ p q
    (fun s => blk0_apply V c t p s _ rfl) (blk1_eq V c t) (fun s => blk2_apply V c t p s _ rfl) (blk3_eq V c t)
    (blk4_eq V c t)).trans ?_
  show Cert.Dense.dualRelu (V c main_v34) (V c main_v49) (V c main_v47) (V c main_v51) (V c main_v54) _
    = Cert.Dense.dualRelu (V c main_v34) (V c main_v49) (V c main_v47) (V c main_v51) (V c main_v54)
        (((cfg2.win 5).blk t).view.emb (ix2 p q))
  refine congrArg _ (funext fun a => Fin.ext ?_)
  match a with
  | ⟨0, _⟩ => show t.val * 2000 + p.val = win2_5.index t (0 : Fin 2) * 2000 + 1 * p.val; omega
  | ⟨1, _⟩ => show q.val = win2_5.index t (1 : Fin 2) * 128 + 1 * q.val; omega

/-! ## The blocks tile the array -/

/-- An index of the result array is in point t's block iff each coordinate is in the block's range on its axis. -/
theorem mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v55).slice (win2_5.rect t)).set ↔ _
  rw [View.set_slice_whole, Rect.mem_set_unit]
  exact Iff.rfl

/-- Row r of the result array is in the block of point r / 2000. -/
theorem cover (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  have hN : (i 0).val / 2000 < cfg2.N := by show _ < 25; omega
  obtain ⟨-, -, -, -, -, -, -, -, -, -, e10, e11⟩ := idx_facts ⟨(i 0).val / 2000, hN⟩
  have e10' : win2_5.index ⟨(i 0).val / 2000, hN⟩ (0 : Fin 2) = (i 0).val / 2000 := e10
  refine ⟨⟨(i 0).val / 2000, hN⟩, flush2_5 _, ?_⟩
  rw [mem_blk]
  intro a
  match a with
  | ⟨0, _⟩ =>
    show win2_5.index ⟨(i 0).val / 2000, hN⟩ (0 : Fin 2) * 2000 ≤ (i 0).val
      ∧ (i 0).val < win2_5.index ⟨(i 0).val / 2000, hN⟩ (0 : Fin 2) * 2000 + 2000
    omega
  | ⟨1, _⟩ =>
    show win2_5.index ⟨(i 0).val / 2000, hN⟩ (1 : Fin 2) * 128 ≤ (i 1).val
      ∧ (i 1).val < win2_5.index ⟨(i 0).val / 2000, hN⟩ (1 : Fin 2) * 128 + 128
    omega

/-! ## The array after the stage -/

/-- After the stage the result array is max (H·Wh + M·Wm + b, 0) of the five input arrays as the stage finds them. -/
theorem final (c : Dev nD) :
    (dat2 (F := Ideal) V c).arrAt 5 cfg2.N
      = Cert.Dense.dualRelu (V c main_v34) (V c main_v49) (V c main_v47) (V c main_v51) (V c main_v54) :=
  (dat2 (F := Ideal) V c).arrAt_eq_of_cover 5 _ (fun t _ => flushed_eq V c t) cover

end Cert.KernelIdeal.Region2

end
-- ==== Proof.Region3.lean ====
/-
  The last dense stage of the network, as one function of its three input arrays.

  The stage runs over 25 blocks of 2000 rows of the node-state matrix X [50000, 128]. At block i it holds rows
  2000 i … 2000 i + 1999 of X, the whole weight matrix W [128, 40] and the whole bias row b [1, 40], and writes
  rows 2000 i … 2000 i + 1999 of the result [50000, 40]. Entry (p, q) of the written block is
  ∑ t, X (2000 i + p, t) · W (t, q) + b (0, q): it depends on one row of the input block, one column of the weight
  matrix and one bias entry. The 25 row blocks tile the 50000 rows (row r lies in block r / 2000), so after the stage
  the result array is X·W + b at every index.
-/
import proofs.«168778_j44289702756626_1_alg».proof.Proof.PatchedKernelIdealFrame
import proofs.«168778_j44289702756626_1_alg».proof.Proof.Dense
import proofs.«168778_j44289702756626_1_alg».proof.Proof.LibPlainProduct
import Idealize.ShloMosaic.Lib.Pipeline.Value
import Idealize.ShloMosaic.Lib.ValueLayout

noncomputable section

namespace Cert.KernelIdeal.Region3

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-- The zero offsets of a whole-block access. -/
theorem hz : (![0, 0] : Fin 2 → Nat) = fun _ => 0 := funext fun a => by fin_cases a <;> rfl

/-! ## The stored block at an index -/

/-- Entry (p, q) of the stored block: the dot product of row p of the loaded row block with column q of the loaded
    weight matrix, plus the bias row's entry q. -/
theorem pay_apply (x0 : Vec Ideal S2000x128 .f32) (x1 : Vec Ideal S128x40 .f32) (x2 : Vec Ideal S1x40 .f32)
    (p : Fin 2000) (q : Fin 40) :
    k3_pay1 (F := Ideal) x0 x1 x2 (ix2 p q)
      = (∑ t : Fin 128, x0 (ix2 p t) * x1 (ix2 t q)) + x2 (ix2 (0 : Fin 1) q) := by
  unfold k3_pay1
  refine (addf_apply _ _ _).trans ?_
  refine congrArg₂ (· + ·) ?_ ?_
  · refine (matmul_zero_plain_apply dot_S2000x128_S128x40_S2000x40_1_0_0_1_n_n rfl rfl rfl rfl rfl rfl none _ _ p q).trans ?_
    rw [shapeCast_self]
    rfl
  · exact (broadcastTo_1b_ab_apply _ _ p q).trans (congrFun (shapeCast_self x2 _) _)

/-- The same entry when row p of the loaded row block is row r of a matrix X and the other two loaded blocks are the
    whole weight matrix and the whole bias row: entry (r, q) of X·W + b. -/
theorem pay_eq_lin (X : S50000x128.Idx → EReal) (W : S128x40.Idx → EReal) (b : S1x40.Idx → EReal)
    (x0 : Vec Ideal S2000x128 .f32) (x1 : Vec Ideal S128x40 .f32) (x2 : Vec Ideal S1x40 .f32)
    (r : Fin 50000) (p : Fin 2000) (q : Fin 40)
    (h0 : ∀ s : Fin 128, x0 (ix2 p s) = X (ix2 r s)) (h1 : x1 = W) (h2 : x2 = b) :
    k3_pay1 (F := Ideal) x0 x1 x2 (ix2 p q) = Cert.Dense.lin X W b (ix2 r q) := by
  subst h1 h2
  rw [pay_apply, Cert.Dense.lin_apply]
  unfold Cert.Dense.linAt
  refine congrArg₂ (· + ·) (Finset.sum_congr rfl fun s _ => ?_) rfl
  rw [h0 s]

/-! ## The blocks of the windows at a point -/

/-- The index maps over the 25 points: the row-block index of the input rows is the output's and equals the point's
    number; every other block index is zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- Row p of the input row block at point t is row 2000 t + p of the input matrix. -/
theorem blk0_apply (c : Dev nD) (t : Fin cfg3.N) (p : Fin 2000) (s : Fin 128) (r : Fin 50000)
    (hr : r.val = t.val * 2000 + p.val) :
    (iblk3 V c 0 t : Vec Ideal S2000x128 .f32) (ix2 p s) = (V c main_v55 : S50000x128.Idx → EReal) (ix2 r s) := by
  obtain ⟨e0, e1, -⟩ := idx_facts t
  show V c main_v55 (((cfg3.win 0).blk t).view.emb (ix2 p s)) = _
  refine congrArg _ (funext fun a => Fin.ext ?_)
  match a with
  | ⟨0, _⟩ => show win3_0.index t (0 : Fin 2) * 2000 + 1 * p.val = r.val; omega
  | ⟨1, _⟩ => show win3_0.index t (1 : Fin 2) * 128 + 1 * s.val = s.val; omega

/-- The weight window's block at every point is the whole weight matrix. -/
theorem blk1_eq (c : Dev nD) (t : Fin cfg3.N) :
    (iblk3 V c 1 t : Vec Ideal S128x40 .f32) = (V c main_arg6 : S128x40.Idx → EReal) := by
  obtain ⟨-, -, e2, e3, -⟩ := idx_facts t
  funext y
  show V c main_arg6 (((cfg3.win 1).blk t).view.emb y) = _
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 40 + 1 * (y 1).val = (y 1).val; omega

/-- The bias window's block at every point is the whole bias row. -/
theorem blk2_eq (c : Dev nD) (t : Fin cfg3.N) :
    (iblk3 V c 2 t : Vec Ideal S1x40 .f32) = (V c main_v56 : S1x40.Idx → EReal) := by
  obtain ⟨-, -, -, -, e4, e5, -⟩ := idx_facts t
  funext y
  show V c main_v56 (((cfg3.win 2).blk t).view.emb y) = _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 40 + 1 * (y 1).val = (y 1).val; omega

/-! ## What a point writes back -/

/-- Point t writes back block t of X·W + b of the three input arrays as the stage finds them. -/
theorem flushed_eq (c : Dev nD) (t : Fin cfg3.N) :
    (dat3 (F := Ideal) V c).flushed 3 t
      = ((cfg3.win 3).blk t).view.read (Elt Ideal) (Cert.Dense.lin (V c main_v55) (V c main_arg6) (V c main_v56)) := by
  show (cfg3.win 3).cut (grid3.coords t) ((dat3 V c).after 3 t) = _
  rw [after3_3]
  unfold out3_3
  rw [View.canon_unit_zero hz]
  simp only [View.ld_unit_zero (S := S2000x128) hz, View.ld_unit_zero (S := S128x40) hz, View.ld_unit_zero (S := S1x40) hz]
  obtain ⟨-, -, -, -, -, -, e6, e7⟩ := idx_facts t
  have ht : t.val < 25 := t.isLt
  funext j
  obtain ⟨p, q, rfl⟩ : ∃ (p : Fin 2000) (q : Fin 40), j = ix2 p q := ⟨j 0, j 1, eq_ix2 j⟩
  have hp : p.val < 2000 := p.isLt
  refine (pay_eq_lin (V c main_v55) (V c main_arg6) (V c main_v56) _ _ _ ⟨t.val * 2000 + p.val, by omega⟩ p q
    (fun s => blk0_apply V c t p s _ rfl) (blk1_eq V c t) (blk2_eq V c t)).trans ?_
  show Cert.Dense.lin (V c main_v55) (V c main_arg6) (V c main_v56) _
    = Cert.Dense.lin (V c main_v55) (V c main_arg6) (V c main_v56) (((cfg3.win 3).blk t).view.emb (ix2 p q))
  refine congrArg _ (funext fun a => Fin.ext ?_)
  match a with
  | ⟨0, _⟩ => show t.val * 2000 + p.val = win3_3.index t (0 : Fin 2) * 2000 + 1 * p.val; omega
  | ⟨1, _⟩ => show q.val = win3_3.index t (1 : Fin 2) * 40 + 1 * q.val; omega

/-! ## The blocks tile the array -/

/-- An index of the result array is in point t's block iff each coordinate is in the block's range on its axis. -/
theorem mem_blk (t : Fin cfg3.N) (i : S50000x40.Idx) :
    i ∈ ((cfg3.win 3).blk t).view.set ↔ ∀ a : Fin 2, win3_3.index t a * S2000x40.size a ≤ (i a).val
      ∧ (i a).val < win3_3.index t a * S2000x40.size a + S2000x40.size a := by
  show i ∈ ((View.whole main_v57).slice (win3_3.rect t)).set ↔ _
  rw [View.set_slice_whole, Rect.mem_set_unit]
  exact Iff.rfl

/-- Row r of the result array is in the block of point r / 2000. -/
theorem cover (i : S50000x40.Idx) :
    ∃ t : Fin cfg3.N, (cfg3.win 3).flush t = true ∧ i ∈ ((cfg3.win 3).blk t).view.set := by
  have hi0 : (i 0).val < 50000 := idx2_lt0 i
  have hi1 : (i 1).val < 40 := idx2_lt1 i
  have hN : (i 0).val / 2000 < cfg3.N := by show _ < 25; omega
  obtain ⟨-, -, -, -, -, -, e6, e7⟩ := idx_facts ⟨(i 0).val / 2000, hN⟩
  have e6' : win3_3.index ⟨(i 0).val / 2000, hN⟩ (0 : Fin 2) = (i 0).val / 2000 := e6
  refine ⟨⟨(i 0).val / 2000, hN⟩, flush3_3 _, ?_⟩
  rw [mem_blk]
  intro a
  match a with
  | ⟨0, _⟩ =>
    show win3_3.index ⟨(i 0).val / 2000, hN⟩ (0 : Fin 2) * 2000 ≤ (i 0).val
      ∧ (i 0).val < win3_3.index ⟨(i 0).val / 2000, hN⟩ (0 : Fin 2) * 2000 + 2000
    omega
  | ⟨1, _⟩ =>
    show win3_3.index ⟨(i 0).val / 2000, hN⟩ (1 : Fin 2) * 40 ≤ (i 1).val
      ∧ (i 1).val < win3_3.index ⟨(i 0).val / 2000, hN⟩ (1 : Fin 2) * 40 + 40
    omega

/-! ## The array after the stage -/

/-- After the stage the result array is X·W + b of the three input arrays as the stage finds them. -/
theorem final (c : Dev nD) :
    (dat3 (F := Ideal) V c).arrAt 3 cfg3.N = Cert.Dense.lin (V c main_v55) (V c main_arg6) (V c main_v56) :=
  (dat3 (F := Ideal) V c).arrAt_eq_of_cover 3 _ (fun t _ => flushed_eq V c t) cover

end Cert.KernelIdeal.Region3

end
-- ==== Proof.Glue.lean ====
/-
  The idealized kernel's result is the network function of its arguments.

  The program is four kernel regions among four stretches of host operations.  Reading the buffer contents boundary
  by boundary from the launch memory: the first stretch lays out the edge list's two columns and the input bias row;
  the first region leaves max(X·W_in + b_in, 0) in its output; the second stretch aggregates that over the edges and
  cuts the first combine matrix into its upper and lower halves; the second region leaves the first combine layer;
  the third stretch and region do the same with the second matrix; the last stretch lays out the output bias row and
  the last region leaves the affine head.  No stretch or region overwrites a buffer a later one reads, so each
  buffer a region reads holds what the stretch before it computed from the regions' outputs and the arguments.  The
  aggregation is carried as one function and never opened.
-/
import proofs.«168778_j44289702756626_1_alg».proof.Proof.KernelRun
import proofs.«168778_j44289702756626_1_alg».proof.Proof.DenseNet
import proofs.«168778_j44289702756626_1_alg».proof.Proof.KernelLayout
import proofs.«168778_j44289702756626_1_alg».proof.Proof.Region0
import proofs.«168778_j44289702756626_1_alg».proof.Proof.Region1
import proofs.«168778_j44289702756626_1_alg».proof.Proof.Region2
import proofs.«168778_j44289702756626_1_alg».proof.Proof.Region3

set_option maxRecDepth 16384

noncomputable section

namespace Cert.KernelIdeal.Glue

open Cert.KernelIdeal Cert.KernelIdeal.Gen Cert.KernelIdeal.GenP
open Idealize.ShloMosaic Idealize.ShloMosaic.TcCoe Idealize.SL.Sem Idealize.ShloMosaic.StableHlo

/-- The mean of the features of a node's in-neighbours: gather the features along the edges' sources (a negative
    source index wrapped by the node count), add them up at the edges' destinations, and divide by the larger of the
    in-degree and one. -/
def agg (adj : (⟨S600000x2, .i32⟩ : BufTy).Contents (Elt Ideal)) (h : FVec Ideal S50000x128 .f32) : FVec Ideal S50000x128 .f32 :=
  mulf (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S600000x1 ![0, 1] adj slices_S600000x2_S600000x1_0_1) shapeCasts_S600000x1_S600000)) (Host.gather gather_S50000x128_S600000x1_S600000x128_1_0_n_n_0_1_1128 h (broadcastInDim S600000x1 ![0] bcast_S600000_S600000x1_0 (select (cmpi .slt (shapeCast _ (extractStridedSlice S600000x1 ![0, 0] adj slices_S600000x2_S600000x1_0_0) shapeCasts_S600000x1_S600000) (broadcastInDim S600000 ![] bcast_S_S600000 (constantI S_ 32 0#32))) (addi (shapeCast _ (extractStridedSlice S600000x1 ![0, 0] adj slices_S600000x2_S600000x1_0_0) shapeCasts_S600000x1_S600000) (broadcastInDim S600000 ![] bcast_S_S600000 (constantI S_ 32 50000#32))) (shapeCast _ (extractStridedSlice S600000x1 ![0, 0] adj slices_S600000x2_S600000x1_0_0) shapeCasts_S600000x1_S600000))))) (broadcastInDim S50000x128 ![0, 1] bcast_S50000x1_S50000x128_0_1 (broadcastInDim S50000x1 ![0] bcast_S50000_S50000x1_0 (Host.divf (broadcastInDim S50000 ![] bcast_S_S50000 (constant S_ .f32 0x3F800000#32)) (maximumf (Host.scatterAdd scatter_S50000_S600000x1_S600000_n_0_0_1 (broadcastInDim S50000 ![] bcast_S_S50000 (constant S_ .f32 0x00000000#32)) (broadcastInDim S600000x1 ![0] bcast_S600000_S600000x1_0 (shapeCast _ (extractStridedSlice S600000x1 ![0, 1] adj slices_S600000x2_S600000x1_0_1) shapeCasts_S600000x1_S600000)) (broadcastInDim S600000 ![] bcast_S_S600000 (constant S_ .f32 0x3F800000#32))) (broadcastInDim S50000 ![] bcast_S_S50000 (constant S_ .f32 0x3F800000#32))))))

variable (m : (ℓ : Loc nD τ sig) → Buf (Elt Ideal) ℓ) (ρ : Dev nD → PrngReg) (c : Dev nD)

/-! ## Entering the first region: the edge list's two columns and the input bias row are laid out; the arguments are as launched -/

theorem W1_arg0 : W1 m ρ c (Proc.devRef .tc main_arg0) = m ((c : Thread nD τ).loc main_arg0) := by
  show StableHlo.after hostOps0 (W0 m ρ c) (Proc.devRef .tc main_arg0) = _
  after_results <;> rfl
theorem W1_arg2 : W1 m ρ c (Proc.devRef .tc main_arg2) = m ((c : Thread nD τ).loc main_arg2) := by
  show StableHlo.after hostOps0 (W0 m ρ c) (Proc.devRef .tc main_arg2) = _
  after_results <;> rfl
theorem W1_arg4 : W1 m ρ c (Proc.devRef .tc main_arg4) = m ((c : Thread nD τ).loc main_arg4) := by
  show StableHlo.after hostOps0 (W0 m ρ c) (Proc.devRef .tc main_arg4) = _
  after_results <;> rfl
theorem W1_arg5 : W1 m ρ c (Proc.devRef .tc main_arg5) = m ((c : Thread nD τ).loc main_arg5) := by
  show StableHlo.after hostOps0 (W0 m ρ c) (Proc.devRef .tc main_arg5) = _
  after_results <;> rfl
theorem W1_arg6 : W1 m ρ c (Proc.devRef .tc main_arg6) = m ((c : Thread nD τ).loc main_arg6) := by
  show StableHlo.after hostOps0 (W0 m ρ c) (Proc.devRef .tc main_arg6) = _
  after_results <;> rfl
theorem W1_arg7 : W1 m ρ c (Proc.devRef .tc main_arg7) = m ((c : Thread nD τ).loc main_arg7) := by
  show StableHlo.after hostOps0 (W0 m ρ c) (Proc.devRef .tc main_arg7) = _
  after_results <;> rfl
theorem W1_v1 : W1 m ρ c (Proc.devRef .tc main_v1) = (shapeCast _ (extractStridedSlice S600000x1 ![0, 0] (m ((c : Thread nD τ).loc main_arg1)) slices_S600000x2_S600000x1_0_0) shapeCasts_S600000x1_S600000) := by
  show StableHlo.after hostOps0 (W0 m ρ c) (Proc.devRef .tc main_v1) = _
  after_results <;> rfl
theorem W1_v3 : W1 m ρ c (Proc.devRef .tc main_v3) = (shapeCast _ (extractStridedSlice S600000x1 ![0, 1] (m ((c : Thread nD τ).loc main_arg1)) slices_S600000x2_S600000x1_0_1) shapeCasts_S600000x1_S600000) := by
  show StableHlo.after hostOps0 (W0 m ρ c) (Proc.devRef .tc main_v3) = _
  after_results <;> rfl
theorem W1_v4 : W1 m ρ c (Proc.devRef .tc main_v4) = shapeCast _ (m ((c : Thread nD τ).loc main_arg3)) shapeCasts_S128_S1x128 := by
  show StableHlo.after hostOps0 (W0 m ρ c) (Proc.devRef .tc main_v4) = _
  after_results <;> rfl

/-! ## Leaving the first region: its output holds the input layer; every other buffer is as it was -/

theorem W2_v5 : W2 m ρ c (Proc.devRef .tc main_v5) = (Cert.Dense.linRelu (m ((c : Thread nD τ).loc main_arg0)) (m ((c : Thread nD τ).loc main_arg2)) (Cert.Dense.row (m ((c : Thread nD τ).loc main_arg3)))) := by
  refine (W2_arr m ρ c 3).trans ((Cert.KernelIdeal.Region0.final (V1 m ρ) c).trans ?_)
  rw [show V1 m ρ c main_arg0 = _ from W1_arg0 m ρ c, show V1 m ρ c main_arg2 = _ from W1_arg2 m ρ c, show V1 m ρ c main_v4 = _ from W1_v4 m ρ c, Cert.KernelIdeal.Layout.bias_row128]
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_v1 : W2 m ρ c (Proc.devRef .tc main_v1) = (shapeCast _ (extractStridedSlice S600000x1 ![0, 0] (m ((c : Thread nD τ).loc main_arg1)) slices_S600000x2_S600000x1_0_0) shapeCasts_S600000x1_S600000) :=
  (W2_of_ne m ρ c main_v1 (by decide)).trans (W1_v1 m ρ c)
theorem W2_v3 : W2 m ρ c (Proc.devRef .tc main_v3) = (shapeCast _ (extractStridedSlice S600000x1 ![0, 1] (m ((c : Thread nD τ).loc main_arg1)) slices_S600000x2_S600000x1_0_1) shapeCasts_S600000x1_S600000) :=
  (W2_of_ne m ρ c main_v3 (by decide)).trans (W1_v3 m ρ c)

/-! ## Entering the second region: the messages of the input layer, the two halves of the first combine matrix, its bias row -/

theorem W3_v5 : W3 m ρ c (Proc.devRef .tc main_v5) = (Cert.Dense.linRelu (m ((c : Thread nD τ).loc main_arg0)) (m ((c : Thread nD τ).loc main_arg2)) (Cert.Dense.row (m ((c : Thread nD τ).loc main_arg3)))) := by
  show StableHlo.after hostOps1 (W2 m ρ c) (Proc.devRef .tc main_v5) = _
  after_results_simp
  exact W2_v5 m ρ c
theorem W3_v26 : W3 m ρ c (Proc.devRef .tc main_v26) = (agg (m ((c : Thread nD τ).loc main_arg1)) (Cert.Dense.linRelu (m ((c : Thread nD τ).loc main_arg0)) (m ((c : Thread nD τ).loc main_arg2)) (Cert.Dense.row (m ((c : Thread nD τ).loc main_arg3))))) := by
  show StableHlo.after hostOps1 (W2 m ρ c) (Proc.devRef .tc main_v26) = _
  after_results_simp
  rw [W2_v5, W2_v1, W2_v3]; rfl
theorem W3_v28 : W3 m ρ c (Proc.devRef .tc main_v28) = shapeCast _ (extractStridedSlice S1x128x128 ![0, 0, 0] (m ((c : Thread nD τ).loc main_arg4)) slices_S2x256x128_S1x128x128_0_0_0) shapeCasts_S1x128x128_S128x128 := by
  show StableHlo.after hostOps1 (W2 m ρ c) (Proc.devRef .tc main_v28) = _
  after_results_simp
  rw [W2_arg4] <;> rfl
theorem W3_v30 : W3 m ρ c (Proc.devRef .tc main_v30) = shapeCast _ (extractStridedSlice S1x128x128 ![0, 128, 0] (m ((c : Thread nD τ).loc main_arg4)) slices_S2x256x128_S1x128x128_0_128_0) shapeCasts_S1x128x128_S128x128 := by
  show StableHlo.after hostOps1 (W2 m ρ c) (Proc.devRef .tc main_v30) = _
  after_results_simp
  rw [W2_arg4] <;> rfl
theorem W3_v33 : W3 m ρ c (Proc.devRef .tc main_v33) = shapeCast _ (shapeCast _ (extractStridedSlice S1x128 ![0, 0] (m ((c : Thread nD τ).loc main_arg5)) slices_S2x128_S1x128_0_0) shapeCasts_S1x128_S128) shapeCasts_S128_S1x128 := by
  show StableHlo.after hostOps1 (W2 m ρ c) (Proc.devRef .tc main_v33) = _
  after_results_simp
  rw [W2_arg5] <;> rfl
theorem W3_v13 : W3 m ρ c (Proc.devRef .tc main_v13) = (Host.divf (broadcastInDim S50000 ![] bcast_S_S50000 (constant (F := Ideal) S_ .f32 0x3F800000#32)) (maximumf (Host.scatterAdd scatter_S50000_S600000x1_S600000_n_0_0_1 (broadcastInDim S50000 ![] bcast_S_S50000 (constant (F := Ideal) S_ .f32 0x00000000#32)) (broadcastInDim S600000x1 ![0] bcast_S600000_S600000x1_0 (shapeCast _ (extractStridedSlice S600000x1 ![0, 1] (m ((c : Thread nD τ).loc main_arg1)) slices_S600000x2_S600000x1_0_1) shapeCasts_S600000x1_S600000)) (broadcastInDim S600000 ![] bcast_S_S600000 (constant (F := Ideal) S_ .f32 0x3F800000#32))) (broadcastInDim S50000 ![] bcast_S_S50000 (constant (F := Ideal) S_ .f32 0x3F800000#32)))) := by
  show StableHlo.after hostOps1 (W2 m ρ c) (Proc.devRef .tc main_v13) = _
  after_results_simp
  rw [W2_v3] <;> rfl
theorem W3_v1 : W3 m ρ c (Proc.devRef .tc main_v1) = (shapeCast _ (extractStridedSlice S600000x1 ![0, 0] (m ((c : Thread nD τ).loc main_arg1)) slices_S600000x2_S600000x1_0_0) shapeCasts_S600000x1_S600000) := by
  show StableHlo.after hostOps1 (W2 m ρ c) (Proc.devRef .tc main_v1) = _
  after_results_simp
  exact W2_v1 m ρ c
theorem W3_v3 : W3 m ρ c (Proc.devRef .tc main_v3) = (shapeCast _ (extractStridedSlice S600000x1 ![0, 1] (m ((c : Thread nD τ).loc main_arg1)) slices_S600000x2_S600000x1_0_1) shapeCasts_S600000x1_S600000) := by
  show StableHlo.after hostOps1 (W2 m ρ c) (Proc.devRef .tc main_v3) = _
  after_results_simp
  exact W2_v3 m ρ c
theorem W3_arg4 : W3 m ρ c (Proc.devRef .tc main_arg4) = m ((c : Thread nD τ).loc main_arg4) := by
  show StableHlo.after hostOps1 (W2 m ρ c) (Proc.devRef .tc main_arg4) = _
  after_results_simp
  exact W2_arg4 m ρ c
theorem W3_arg5 : W3 m ρ c (Proc.devRef .tc main_arg5) = m ((c : Thread nD τ).loc main_arg5) := by
  show StableHlo.after hostOps1 (W2 m ρ c) (Proc.devRef .tc main_arg5) = _
  after_results_simp
  exact W2_arg5 m ρ c
theorem W3_arg6 : W3 m ρ c (Proc.devRef .tc main_arg6) = m ((c : Thread nD τ).loc main_arg6) := by
  show StableHlo.after hostOps1 (W2 m ρ c) (Proc.devRef .tc main_arg6) = _
  after_results_simp
  exact W2_arg6 m ρ c
theorem W3_arg7 : W3 m ρ c (Proc.devRef .tc main_arg7) = m ((c : Thread nD τ).loc main_arg7) := by
  show StableHlo.after hostOps1 (W2 m ρ c) (Proc.devRef .tc main_arg7) = _
  after_results_simp
  exact W2_arg7 m ρ c

/-! ## Leaving the second region: its output holds the first combine layer -/

theorem W4_v34 : W4 m ρ c (Proc.devRef .tc main_v34) = (Cert.Dense.dualRelu (Cert.Dense.linRelu (m ((c : Thread nD τ).loc main_arg0)) (m ((c : Thread nD τ).loc main_arg2)) (Cert.Dense.row (m ((c : Thread nD τ).loc main_arg3)))) (Cert.Dense.wband 128 0 (by norm_num) (m ((c : Thread nD τ).loc main_arg4)) 0) (agg (m ((c : Thread nD τ).loc main_arg1)) (Cert.Dense.linRelu (m ((c : Thread nD τ).loc main_arg0)) (m ((c : Thread nD τ).loc main_arg2)) (Cert.Dense.row (m ((c : Thread nD τ).loc main_arg3))))) (Cert.Dense.wband 128 128 (by norm_num) (m ((c : Thread nD τ).loc main_arg4)) 0) (Cert.Dense.brow (m ((c : Thread nD τ).loc main_arg5)) 0)) := by
  refine (W4_arr m ρ c 5).trans ((Cert.KernelIdeal.Region1.final (V3 m ρ) c).trans ?_)
  rw [show V3 m ρ c main_v5 = _ from W3_v5 m ρ c, show V3 m ρ c main_v28 = _ from W3_v28 m ρ c, show V3 m ρ c main_v26 = _ from W3_v26 m ρ c, show V3 m ρ c main_v30 = _ from W3_v30 m ρ c, show V3 m ρ c main_v33 = _ from W3_v33 m ρ c, Cert.KernelIdeal.Layout.band_0_0, Cert.KernelIdeal.Layout.band_0_128, Cert.KernelIdeal.Layout.brow_0]
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_v1 : W4 m ρ c (Proc.devRef .tc main_v1) = (shapeCast _ (extractStridedSlice S600000x1 ![0, 0] (m ((c : Thread nD τ).loc main_arg1)) slices_S600000x2_S600000x1_0_0) shapeCasts_S600000x1_S600000) :=
  (W4_of_ne m ρ c main_v1 (by decide)).trans (W3_v1 m ρ c)
theorem W4_v3 : W4 m ρ c (Proc.devRef .tc main_v3) = (shapeCast _ (extractStridedSlice S600000x1 ![0, 1] (m ((c : Thread nD τ).loc main_arg1)) slices_S600000x2_S600000x1_0_1) shapeCasts_S600000x1_S600000) :=
  (W4_of_ne m ρ c main_v3 (by decide)).trans (W3_v3 m ρ c)
theorem W4_v13 : W4 m ρ c (Proc.devRef .tc main_v13) = (Host.divf (broadcastInDim S50000 ![] bcast_S_S50000 (constant (F := Ideal) S_ .f32 0x3F800000#32)) (maximumf (Host.scatterAdd scatter_S50000_S600000x1_S600000_n_0_0_1 (broadcastInDim S50000 ![] bcast_S_S50000 (constant (F := Ideal) S_ .f32 0x00000000#32)) (broadcastInDim S600000x1 ![0] bcast_S600000_S600000x1_0 (shapeCast _ (extractStridedSlice S600000x1 ![0, 1] (m ((c : Thread nD τ).loc main_arg1)) slices_S600000x2_S600000x1_0_1) shapeCasts_S600000x1_S600000)) (broadcastInDim S600000 ![] bcast_S_S600000 (constant (F := Ideal) S_ .f32 0x3F800000#32))) (broadcastInDim S50000 ![] bcast_S_S50000 (constant (F := Ideal) S_ .f32 0x3F800000#32)))) :=
  (W4_of_ne m ρ c main_v13 (by decide)).trans (W3_v13 m ρ c)

/-! ## Entering the third region: the messages of the first combine layer, the two halves of the second combine matrix, its bias row -/

theorem W5_v34 : W5 m ρ c (Proc.devRef .tc main_v34) = (Cert.Dense.dualRelu (Cert.Dense.linRelu (m ((c : Thread nD τ).loc main_arg0)) (m ((c : Thread nD τ).loc main_arg2)) (Cert.Dense.row (m ((c : Thread nD τ).loc main_arg3)))) (Cert.Dense.wband 128 0 (by norm_num) (m ((c : Thread nD τ).loc main_arg4)) 0) (agg (m ((c : Thread nD τ).loc main_arg1)) (Cert.Dense.linRelu (m ((c : Thread nD τ).loc main_arg0)) (m ((c : Thread nD τ).loc main_arg2)) (Cert.Dense.row (m ((c : Thread nD τ).loc main_arg3))))) (Cert.Dense.wband 128 128 (by norm_num) (m ((c : Thread nD τ).loc main_arg4)) 0) (Cert.Dense.brow (m ((c : Thread nD τ).loc main_arg5)) 0)) := by
  show StableHlo.after hostOps2 (W4 m ρ c) (Proc.devRef .tc main_v34) = _
  after_results_simp
  exact W4_v34 m ρ c
theorem W5_v47 : W5 m ρ c (Proc.devRef .tc main_v47) = (agg (m ((c : Thread nD τ).loc main_arg1)) (Cert.Dense.dualRelu (Cert.Dense.linRelu (m ((c : Thread nD τ).loc main_arg0)) (m ((c : Thread nD τ).loc main_arg2)) (Cert.Dense.row (m ((c : Thread nD τ).loc main_arg3)))) (Cert.Dense.wband 128 0 (by norm_num) (m ((c : Thread nD τ).loc main_arg4)) 0) (agg (m ((c : Thread nD τ).loc main_arg1)) (Cert.Dense.linRelu (m ((c : Thread nD τ).loc main_arg0)) (m ((c : Thread nD τ).loc main_arg2)) (Cert.Dense.row (m ((c : Thread nD τ).loc main_arg3))))) (Cert.Dense.wband 128 128 (by norm_num) (m ((c : Thread nD τ).loc main_arg4)) 0) (Cert.Dense.brow (m ((c : Thread nD τ).loc main_arg5)) 0))) := by
  show StableHlo.after hostOps2 (W4 m ρ c) (Proc.devRef .tc main_v47) = _
  after_results_simp
  rw [W4_v34, W4_v1, W4_v3, W4_v13]; rfl
theorem W5_v49 : W5 m ρ c (Proc.devRef .tc main_v49) = shapeCast _ (extractStridedSlice S1x128x128 ![1, 0, 0] (m ((c : Thread nD τ).loc main_arg4)) slices_S2x256x128_S1x128x128_1_0_0) shapeCasts_S1x128x128_S128x128 := by
  show StableHlo.after hostOps2 (W4 m ρ c) (Proc.devRef .tc main_v49) = _
  after_results_simp
  rw [W4_arg4] <;> rfl
theorem W5_v51 : W5 m ρ c (Proc.devRef .tc main_v51) = shapeCast _ (extractStridedSlice S1x128x128 ![1, 128, 0] (m ((c : Thread nD τ).loc main_arg4)) slices_S2x256x128_S1x128x128_1_128_0) shapeCasts_S1x128x128_S128x128 := by
  show StableHlo.after hostOps2 (W4 m ρ c) (Proc.devRef .tc main_v51) = _
  after_results_simp
  rw [W4_arg4] <;> rfl
theorem W5_v54 : W5 m ρ c (Proc.devRef .tc main_v54) = shapeCast _ (shapeCast _ (extractStridedSlice S1x128 ![1, 0] (m ((c : Thread nD τ).loc main_arg5)) slices_S2x128_S1x128_1_0) shapeCasts_S1x128_S128) shapeCasts_S128_S1x128 := by
  show StableHlo.after hostOps2 (W4 m ρ c) (Proc.devRef .tc main_v54) = _
  after_results_simp
  rw [W4_arg5] <;> rfl
theorem W5_arg6 : W5 m ρ c (Proc.devRef .tc main_arg6) = m ((c : Thread nD τ).loc main_arg6) := by
  show StableHlo.after hostOps2 (W4 m ρ c) (Proc.devRef .tc main_arg6) = _
  after_results_simp
  exact W4_arg6 m ρ c
theorem W5_arg7 : W5 m ρ c (Proc.devRef .tc main_arg7) = m ((c : Thread nD τ).loc main_arg7) := by
  show StableHlo.after hostOps2 (W4 m ρ c) (Proc.devRef .tc main_arg7) = _
  after_results_simp
  exact W4_arg7 m ρ c

/-! ## Leaving the third region: its output holds the second combine layer -/

theorem W6_v55 : W6 m ρ c (Proc.devRef .tc main_v55) = (Cert.Dense.dualRelu (Cert.Dense.dualRelu (Cert.Dense.linRelu (m ((c : Thread nD τ).loc main_arg0)) (m ((c : Thread nD τ).loc main_arg2)) (Cert.Dense.row (m ((c : Thread nD τ).loc main_arg3)))) (Cert.Dense.wband 128 0 (by norm_num) (m ((c : Thread nD τ).loc main_arg4)) 0) (agg (m ((c : Thread nD τ).loc main_arg1)) (Cert.Dense.linRelu (m ((c : Thread nD τ).loc main_arg0)) (m ((c : Thread nD τ).loc main_arg2)) (Cert.Dense.row (m ((c : Thread nD τ).loc main_arg3))))) (Cert.Dense.wband 128 128 (by norm_num) (m ((c : Thread nD τ).loc main_arg4)) 0) (Cert.Dense.brow (m ((c : Thread nD τ).loc main_arg5)) 0)) (Cert.Dense.wband 128 0 (by norm_num) (m ((c : Thread nD τ).loc main_arg4)) 1) (agg (m ((c : Thread nD τ).loc main_arg1)) (Cert.Dense.dualRelu (Cert.Dense.linRelu (m ((c : Thread nD τ).loc main_arg0)) (m ((c : Thread nD τ).loc main_arg2)) (Cert.Dense.row (m ((c : Thread nD τ).loc main_arg3)))) (Cert.Dense.wband 128 0 (by norm_num) (m ((c : Thread nD τ).loc main_arg4)) 0) (agg (m ((c : Thread nD τ).loc main_arg1)) (Cert.Dense.linRelu (m ((c : Thread nD τ).loc main_arg0)) (m ((c : Thread nD τ).loc main_arg2)) (Cert.Dense.row (m ((c : Thread nD τ).loc main_arg3))))) (Cert.Dense.wband 128 128 (by norm_num) (m ((c : Thread nD τ).loc main_arg4)) 0) (Cert.Dense.brow (m ((c : Thread nD τ).loc main_arg5)) 0))) (Cert.Dense.wband 128 128 (by norm_num) (m ((c : Thread nD τ).loc main_arg4)) 1) (Cert.Dense.brow (m ((c : Thread nD τ).loc main_arg5)) 1)) := by
  refine (W6_arr m ρ c 5).trans ((Cert.KernelIdeal.Region2.final (V5 m ρ) c).trans ?_)
  rw [show V5 m ρ c main_v34 = _ from W5_v34 m ρ c, show V5 m ρ c main_v49 = _ from W5_v49 m ρ c, show V5 m ρ c main_v47 = _ from W5_v47 m ρ c, show V5 m ρ c main_v51 = _ from W5_v51 m ρ c, show V5 m ρ c main_v54 = _ from W5_v54 m ρ c, Cert.KernelIdeal.Layout.band_1_0, Cert.KernelIdeal.Layout.band_1_128, Cert.KernelIdeal.Layout.brow_1]
theorem W6_arg6 : W6 m ρ c (Proc.devRef .tc main_arg6) = m ((c : Thread nD τ).loc main_arg6) :=
  (W6_of_ne m ρ c main_arg6 (by decide)).trans (W5_arg6 m ρ c)
theorem W6_arg7 : W6 m ρ c (Proc.devRef .tc main_arg7) = m ((c : Thread nD τ).loc main_arg7) :=
  (W6_of_ne m ρ c main_arg7 (by decide)).trans (W5_arg7 m ρ c)

/-! ## Entering the last region: the output bias row is laid out -/

theorem W7_v55 : W7 m ρ c (Proc.devRef .tc main_v55) = (Cert.Dense.dualRelu (Cert.Dense.dualRelu (Cert.Dense.linRelu (m ((c : Thread nD τ).loc main_arg0)) (m ((c : Thread nD τ).loc main_arg2)) (Cert.Dense.row (m ((c : Thread nD τ).loc main_arg3)))) (Cert.Dense.wband 128 0 (by norm_num) (m ((c : Thread nD τ).loc main_arg4)) 0) (agg (m ((c : Thread nD τ).loc main_arg1)) (Cert.Dense.linRelu (m ((c : Thread nD τ).loc main_arg0)) (m ((c : Thread nD τ).loc main_arg2)) (Cert.Dense.row (m ((c : Thread nD τ).loc main_arg3))))) (Cert.Dense.wband 128 128 (by norm_num) (m ((c : Thread nD τ).loc main_arg4)) 0) (Cert.Dense.brow (m ((c : Thread nD τ).loc main_arg5)) 0)) (Cert.Dense.wband 128 0 (by norm_num) (m ((c : Thread nD τ).loc main_arg4)) 1) (agg (m ((c : Thread nD τ).loc main_arg1)) (Cert.Dense.dualRelu (Cert.Dense.linRelu (m ((c : Thread nD τ).loc main_arg0)) (m ((c : Thread nD τ).loc main_arg2)) (Cert.Dense.row (m ((c : Thread nD τ).loc main_arg3)))) (Cert.Dense.wband 128 0 (by norm_num) (m ((c : Thread nD τ).loc main_arg4)) 0) (agg (m ((c : Thread nD τ).loc main_arg1)) (Cert.Dense.linRelu (m ((c : Thread nD τ).loc main_arg0)) (m ((c : Thread nD τ).loc main_arg2)) (Cert.Dense.row (m ((c : Thread nD τ).loc main_arg3))))) (Cert.Dense.wband 128 128 (by norm_num) (m ((c : Thread nD τ).loc main_arg4)) 0) (Cert.Dense.brow (m ((c : Thread nD τ).loc main_arg5)) 0))) (Cert.Dense.wband 128 128 (by norm_num) (m ((c : Thread nD τ).loc main_arg4)) 1) (Cert.Dense.brow (m ((c : Thread nD τ).loc main_arg5)) 1)) := by
  show StableHlo.after hostOps3 (W6 m ρ c) (Proc.devRef .tc main_v55) = _
  after_results
  exact W6_v55 m ρ c
theorem W7_arg6 : W7 m ρ c (Proc.devRef .tc main_arg6) = m ((c : Thread nD τ).loc main_arg6) := by
  show StableHlo.after hostOps3 (W6 m ρ c) (Proc.devRef .tc main_arg6) = _
  after_results
  exact W6_arg6 m ρ c
theorem W7_v56 : W7 m ρ c (Proc.devRef .tc main_v56) = shapeCast _ (m ((c : Thread nD τ).loc main_arg7)) shapeCasts_S40_S1x40 := by
  show StableHlo.after hostOps3 (W6 m ρ c) (Proc.devRef .tc main_v56) = _
  after_results
  rw [W6_arg7] <;> rfl

/-! ## The result: the output head of the second combine layer, which is the network function of the arguments -/

theorem W8_v57 : W8 m ρ c (Proc.devRef .tc main_v57) = Cert.Dense.net (agg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 3).trans ((Cert.KernelIdeal.Region3.final (V7 m ρ) c).trans ?_)
  rw [show V7 m ρ c main_v55 = _ from W7_v55 m ρ c, show V7 m ρ c main_arg6 = _ from W7_arg6 m ρ c, show V7 m ρ c main_v56 = _ from W7_v56 m ρ c, Cert.KernelIdeal.Layout.bias_row40]
  rfl

end Cert.KernelIdeal.Glue

end
-- ==== Proof.LibHostColumn.lean ====
/-
  Host-side row and column forms of the layout operations, read at an index given by its coordinates.

  A vector of length b becomes the one-row array [1, b] (the vector laid along axis 1); the one-row array is
  repeated down a rows to [a, b]; and a column [a, 1] is re-laid as the vector of length a. Each lemma reads the
  result at its coordinates: the row forms keep the column coordinate, the column form keeps the row coordinate.
-/
import Idealize.ShloMosaic.Lib.Pipeline.Value
import Idealize.ShloMosaic.Lib.ValueIdx

noncomputable section

namespace Cert.LibHostColumn

open Idealize.ShloMosaic Idealize.ShloMosaic.ValueIdx

variable {α : Type}

/-- A vector of length b laid along axis 1 of [1, b]: the entry at (z, c) is the vector's entry c. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (z : Fin 1) (c : Fin b) :
    broadcastInDim ⟨2, ![1, b]⟩ (![1] : Fin 1 → Fin 2) h x (ix2 z c) = x (ix1 c) := by
  refine broadcastInDim_apply _ h x (ix2 z c) (ix1 c) fun ax => ?_
  match ax with
  | ⟨0, _⟩ =>
    show c.val = if b = 1 then 0 else c.val
    split
    · have := c.isLt; omega
    · rfl

/-- A one-row array [1, b] repeated down a rows (axes kept in place): the entry at (p, c) is the row's entry c. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column [a, 1] re-laid as the vector of length a: the entry i is the column's entry of row i (the
    row-major position of (i, 0) in [a, 1] is i * 1 + 0 = i). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibHostColumn

end
-- ==== Proof.LibConcatCols.lean ====
/-
  Two arrays joined side by side, read at an index given by its coordinates.

  An [a, b1] array and an [a, b2] array joined along the column axis give an [a, b] array (b = b1 + b2) whose
  entry at row p and column k is the first array's entry (p, k) when k < b1, and the second array's entry
  (p, k - b1) otherwise.
-/
import Idealize.ShloMosaic.Lib.Pipeline.Value
import Idealize.ShloMosaic.Lib.ValueIdx

noncomputable section

namespace Cert.LibConcatCols

open Idealize.ShloMosaic Idealize.ShloMosaic.ValueIdx

variable {α : Type}

/-- A column of the joined array that lies in the first piece reads the first piece at the same row and column. -/
theorem concatCols_left {a b1 b2 b : ℕ} (x₁ : (⟨2, ![a, b1]⟩ : Shape).Idx → α) (x₂ : (⟨2, ![a, b2]⟩ : Shape).Idx → α)
    (h : Shape.Concatenates [(⟨2, ![a, b1]⟩ : Shape), ⟨2, ![a, b2]⟩] ⟨2, ![a, b]⟩ 1) (p : Fin a) (k : Fin b)
    (hk : k.val < b1) :
    concatenate ⟨2, ![a, b]⟩ 1 [⟨⟨2, ![a, b1]⟩, x₁⟩, ⟨⟨2, ![a, b2]⟩, x₂⟩] h (ix2 p k) = x₁ (ix2 p ⟨k.val, hk⟩) := by
  refine concatenate_pair_apply_left (1 : Fin 2) x₁ x₂ h (ix2 p k) rfl (ix2 p ⟨k.val, hk⟩) fun ax => ?_
  match ax with
  | ⟨0, _⟩ => rfl
  | ⟨1, _⟩ => rfl

/-- A column of the joined array that lies past the first piece reads the second piece at the same row, the
    column less the first piece's width. -/
theorem concatCols_right {a b1 b2 b : ℕ} (x₁ : (⟨2, ![a, b1]⟩ : Shape).Idx → α) (x₂ : (⟨2, ![a, b2]⟩ : Shape).Idx → α)
    (h : Shape.Concatenates [(⟨2, ![a, b1]⟩ : Shape), ⟨2, ![a, b2]⟩] ⟨2, ![a, b]⟩ 1) (p : Fin a) (k : Fin b)
    (hk : b1 ≤ k.val) (hk2 : k.val - b1 < b2) :
    concatenate ⟨2, ![a, b]⟩ 1 [⟨⟨2, ![a, b1]⟩, x₁⟩, ⟨⟨2, ![a, b2]⟩, x₂⟩] h (ix2 p k) = x₂ (ix2 p ⟨k.val - b1, hk2⟩) := by
  refine concatenate_pair_apply_right (1 : Fin 2) x₁ x₂ h (ix2 p k) rfl rfl (ix2 p ⟨k.val - b1, hk2⟩) (fun ax hax => ?_) ?_
  · match ax with
    | ⟨0, _⟩ => rfl
    | ⟨1, _⟩ => exact absurd rfl hax
  · show k.val - b1 + b1 = k.val
    omega

/-- The two arrays side by side as one function of the row and the column. -/
def catCols {a b1 b2 b : ℕ} (hb : b = b1 + b2) (x₁ : (⟨2, ![a, b1]⟩ : Shape).Idx → α) (x₂ : (⟨2, ![a, b2]⟩ : Shape).Idx → α)
    (p : Fin a) (k : Fin b) : α :=
  if hk : k.val < b1 then x₁ (ix2 p ⟨k.val, hk⟩) else x₂ (ix2 p ⟨k.val - b1, by have := k.isLt; omega⟩)

/-- The joined array is that function. -/
theorem concatCols_apply {a b1 b2 b : ℕ} (hb : b = b1 + b2) (x₁ : (⟨2, ![a, b1]⟩ : Shape).Idx → α)
    (x₂ : (⟨2, ![a, b2]⟩ : Shape).Idx → α)
    (h : Shape.Concatenates [(⟨2, ![a, b1]⟩ : Shape), ⟨2, ![a, b2]⟩] ⟨2, ![a, b]⟩ 1) (p : Fin a) (k : Fin b) :
    concatenate ⟨2, ![a, b]⟩ 1 [⟨⟨2, ![a, b1]⟩, x₁⟩, ⟨⟨2, ![a, b2]⟩, x₂⟩] h (ix2 p k) = catCols hb x₁ x₂ p k := by
  unfold catCols
  by_cases hk : k.val < b1
  · rw [dif_pos hk]; exact concatCols_left x₁ x₂ h p k hk
  · rw [dif_neg hk]; exact concatCols_right x₁ x₂ h p k (Nat.le_of_not_lt hk) _

end Cert.LibConcatCols

end
-- ==== Proof.LibDotSplit.lean ====
/-
  A sum over `Fin (m + n)` splits into the sum over the first `m` indices and the sum over the last `n`;
  in particular a dot product against a concatenated row is the sum of the two partial dot products.
-/
import Mathlib.Algebra.BigOperators.Fin

namespace Cert.Lib

/-- A sum over `Fin 256` is the sum over the first 128 indices plus the sum over the last 128. -/
theorem sum_fin256_split {M : Type*} [AddCommMonoid M] (f : Fin 256 → M) :
    ∑ k : Fin 256, f k
      = ∑ k : Fin 128, f ⟨k.val, by omega⟩ + ∑ k : Fin 128, f ⟨128 + k.val, by omega⟩ :=
  Fin.sum_univ_add (a := 128) (b := 128) (fun k : Fin (128 + 128) => f k)

/-- A 256-term dot product whose left row is the concatenation of two 128-term rows is the sum of the two
    128-term dot products, the second against the lower half of the right column. -/
theorem dot_concat_split {M : Type*} [AddCommMonoid M] [Mul M] (c w : Fin 256 → M) (l e : Fin 128 → M)
    (hl : ∀ k : Fin 128, c ⟨k.val, by omega⟩ = l k) (he : ∀ k : Fin 128, c ⟨128 + k.val, by omega⟩ = e k) :
    ∑ k : Fin 256, c k * w k
      = ∑ k : Fin 128, l k * w ⟨k.val, by omega⟩ + ∑ k : Fin 128, e k * w ⟨128 + k.val, by omega⟩ := by
  rw [sum_fin256_split]
  simp only [hl, he]

end Cert.Lib
-- ==== Proof.RefLayers.lean ====
/-
  The reference network's dense layers, each as one equation between whole arrays at the exact extended reals.

  An entry (p, q) of a dense layer's output depends on row p of the layer's input, column q of the layer's weight
  matrix and entry q of its bias: it is the dot product of that row with that column plus that bias entry, and a
  rectified layer takes the maximum of this with zero.  The host's matrix product at (p, q) is the plain sum of
  products over the shared axis; the bias vector laid as a one-row array and repeated down the rows reads, at (p, q),
  the vector's entry q; the scalar zero spread over the array reads zero everywhere.

  A combine layer multiplies the row [h ‖ msg] of length 256 (the node's features followed by its aggregated
  messages) with column q of matrix l of the weight stack.  The first 128 terms of that dot product pair h with rows
  0..127 of the matrix and the last 128 pair msg with rows 128..255, so the product is the sum of the two 128-term
  dot products: a sum over 256 indices split at 128, which needs only that addition is commutative and associative.
-/
import proofs.«168778_j44289702756626_1_alg».proof.ReferenceIdeal
import proofs.«168778_j44289702756626_1_alg».proof.Proof.Dense
import proofs.«168778_j44289702756626_1_alg».proof.Proof.LibPlainProduct
import proofs.«168778_j44289702756626_1_alg».proof.Proof.LibHostColumn
import proofs.«168778_j44289702756626_1_alg».proof.Proof.LibConcatCols
import proofs.«168778_j44289702756626_1_alg».proof.Proof.LibDotSplit
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Layers

open Cert.ReferenceIdeal Idealize.ShloMosaic Idealize.ShloMosaic.ValueIdx

variable [Facts₀]
open Facts₀

/-- The scalar zero spread over the array [50000, 128] reads zero at every index. -/
theorem zero_bcast_apply (i : S50000x128.Idx) :
    broadcastInDim S50000x128 ![] bcast_S_S50000x128 (constant (F := Ideal) S_ .f32 0x00000000#32) i = 0 := by
  rw [broadcastInDim_apply ![] bcast_S_S50000x128 _ i ix0 (fun a => a.elim0), constant_apply]
  exact Ideal.ofBits_zero_f32

/-- The input layer: entry (p, q) is max(∑ t, X (p, t) * W (t, q) + b q, 0). -/
theorem input_layer (X : FVec Ideal S50000x128 .f32) (W : FVec Ideal S128x128 .f32) (b : FVec Ideal S128 .f32) :
    maximumf (addf (Host.dotGeneral dot_S50000x128_S128x128_S50000x128_1_0_0_1_n_n none X W) (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))
      = Cert.Dense.linRelu X W (Cert.Dense.row b) := by
  funext i
  obtain ⟨p, q, rfl⟩ : ∃ (p : Fin 50000) (q : Fin 128), i = ValueIdx.ix2 p q := ⟨i 0, i 1, ValueIdx.eq_ix2 i⟩
  rw [maximumf_apply, addf_apply, zero_bcast_apply, Cert.Dense.linRelu_apply]
  simp only [Host.dotGeneral]
  rw [ValueIdx.dotGeneral_plain_apply _ rfl rfl rfl rfl rfl rfl,
    Cert.LibHostColumn.broadcastInDim_1b_ab_apply, Cert.LibHostColumn.broadcastInDim_b_1b_apply]
  rfl

/-- The output layer: entry (p, q) is ∑ t, H (p, t) * W (t, q) + b q. -/
theorem output_layer (H : FVec Ideal S50000x128 .f32) (W : FVec Ideal S128x40 .f32) (b : FVec Ideal S40 .f32) :
    addf (Host.dotGeneral dot_S50000x128_S128x40_S50000x40_1_0_0_1_n_n none H W) (broadcastInDim S50000x40 ![0, 1] bcast_S1x40_S50000x40_0_1 (broadcastInDim S1x40 ![1] bcast_S40_S1x40_1 b))
      = Cert.Dense.lin H W (Cert.Dense.row b) := by
  funext i
  obtain ⟨p, q, rfl⟩ : ∃ (p : Fin 50000) (q : Fin 40), i = ValueIdx.ix2 p q := ⟨i 0, i 1, ValueIdx.eq_ix2 i⟩
  rw [addf_apply, Cert.Dense.lin_apply]
  simp only [Host.dotGeneral]
  rw [ValueIdx.dotGeneral_plain_apply _ rfl rfl rfl rfl rfl rfl,
    Cert.LibHostColumn.broadcastInDim_1b_ab_apply, Cert.LibHostColumn.broadcastInDim_b_1b_apply]
  rfl

/-- Matrix l of the weight stack, cut out and re-laid as [256, 128]: entry (k, q) is the stack's entry (l, k, q). -/
theorem wmat_apply (l : ℕ) (hl : l < 2) (W : FVec Ideal S2x256x128 .f32)
    (hs : S2x256x128.Slices ![l, 0, 0] S1x256x128) (hc : S1x256x128.ShapeCasts S256x128) (k : Fin 256) (q : Fin 128) :
    shapeCast S256x128 (extractStridedSlice S1x256x128 ![l, 0, 0] W hs) hc (ix2 k q) = W (ix3 (⟨l, hl⟩ : Fin 2) k q) := by
  rw [shapeCast_1ab_ab_apply]
  exact extractStridedSlice_apply ![l, 0, 0] W hs (ix3 (0 : Fin 1) k q) (ix3 (⟨l, hl⟩ : Fin 2) k q) (fun a => match a with
    | ⟨0, _⟩ => rfl
    | ⟨1, _⟩ => by show k.val = 0 + k.val; omega
    | ⟨2, _⟩ => by show q.val = 0 + q.val; omega)

/-- Row l of the bias table, cut out, flattened, laid as one row and repeated down the rows: entry (p, q) is the
    table's entry (l, q). -/
theorem bias_apply (l : ℕ) (hl : l < 2) (b : FVec Ideal S2x128 .f32) (hs : S2x128.Slices ![l, 0] S1x128)
    (hc : S1x128.ShapeCasts S128) (p : Fin 50000) (q : Fin 128) :
    broadcastInDim S50000x128 ![0, 1] bcast_S1x128_S50000x128_0_1 (broadcastInDim S1x128 ![1] bcast_S128_S1x128_1 (shapeCast S128 (extractStridedSlice S1x128 ![l, 0] b hs) hc)) (ix2 p q)
      = b (ix2 (⟨l, hl⟩ : Fin 2) q) := by
  rw [Cert.LibHostColumn.broadcastInDim_1b_ab_apply, Cert.LibHostColumn.broadcastInDim_b_1b_apply, shapeCast_1a_a_apply]
  exact extractStridedSlice_apply ![l, 0] b hs (ix2 (0 : Fin 1) q) (ix2 (⟨l, hl⟩ : Fin 2) q) (fun a => match a with
    | ⟨0, _⟩ => rfl
    | ⟨1, _⟩ => by show q.val = 0 + q.val; omega)

/-- The joined product at (p, q) is the two sums: the 256-term dot product of the row [h ‖ msg] with column q of
    matrix l is the dot product of h with rows 0..127 of that column plus the dot product of msg with rows 128..255. -/
theorem joined_product_apply (l : ℕ) (hl : l < 2) (H M : FVec Ideal S50000x128 .f32) (W : FVec Ideal S2x256x128 .f32)
    (hs : S2x256x128.Slices ![l, 0, 0] S1x256x128) (hc : S1x256x128.ShapeCasts S256x128) (p : Fin 50000) (q : Fin 128) :
    Host.dotGeneral dot_S50000x256_S256x128_S50000x128_1_0_0_1_n_n none (concatenate S50000x256 1 [⟨S50000x128, H⟩, ⟨S50000x128, M⟩] concatenates_S50000x128_S50000x128_S50000x256_d1) (shapeCast S256x128 (extractStridedSlice S1x256x128 ![l, 0, 0] W hs) hc) (ix2 p q)
      = (∑ t : Fin 128, H (ix2 p t) * Cert.Dense.wband 128 0 (by norm_num) W (⟨l, hl⟩ : Fin 2) (ix2 t q))
        + (∑ t : Fin 128, M (ix2 p t) * Cert.Dense.wband 128 128 (by norm_num) W (⟨l, hl⟩ : Fin 2) (ix2 t q)) := by
  simp only [Host.dotGeneral]
  rw [ValueIdx.dotGeneral_plain_apply _ rfl rfl rfl rfl rfl rfl]
  refine (Cert.Lib.dot_concat_split
    (fun k : Fin 256 => concatenate S50000x256 1 [⟨S50000x128, H⟩, ⟨S50000x128, M⟩] concatenates_S50000x128_S50000x128_S50000x256_d1 (ix2 p k))
    (fun k : Fin 256 => shapeCast S256x128 (extractStridedSlice S1x256x128 ![l, 0, 0] W hs) hc (ix2 k q))
    (fun t : Fin 128 => H (ix2 p t)) (fun t : Fin 128 => M (ix2 p t)) (fun t => ?_) (fun t => ?_)).trans ?_
  · exact Cert.LibConcatCols.concatCols_left H M concatenates_S50000x128_S50000x128_S50000x256_d1 p ⟨t.val, by omega⟩ t.isLt
  · refine (Cert.LibConcatCols.concatCols_right H M concatenates_S50000x128_S50000x128_S50000x256_d1 p ⟨128 + t.val, by omega⟩
      (Nat.le_add_right 128 t.val) (by show 128 + t.val - 128 < 128; omega)).trans ?_
    exact congrArg (fun j : Fin 128 => M (ix2 p j)) (Fin.ext (by show 128 + t.val - 128 = t.val; omega))
  · refine congrArg₂ (· + ·) (Finset.sum_congr rfl fun t _ => ?_) (Finset.sum_congr rfl fun t _ => ?_)
    · rw [wmat_apply l hl, Cert.Dense.wband_apply]
      exact congrArg (fun j : Fin 256 => H (ix2 p t) * W (ix3 (⟨l, hl⟩ : Fin 2) j q)) (Fin.ext (by show t.val = 0 + t.val; omega))
    · rw [wmat_apply l hl, Cert.Dense.wband_apply]

/-- A combine layer with the weights and bias of layer l: entry (p, q) is
    max(∑ t, H (p, t) * W (l, t, q) + ∑ t, M (p, t) * W (l, 128 + t, q) + b (l, q), 0). -/
theorem combine_layer (l : ℕ) (hl : l < 2) (H M : FVec Ideal S50000x128 .f32) (W : FVec Ideal S2x256x128 .f32) (b : FVec Ideal S2x128 .f32)
    (hs : S2x256x128.Slices ![l, 0, 0] S1x256x128) (hb : S2x128.Slices ![l, 0] S1x128) :
    maximumf (addf (Host.dotGeneral dot_S50000x256_S256x128_S50000x128_1_0_0_1_n_n none (concatenate S50000x256 1 [⟨S50000x128, H⟩, ⟨S50000x128, M⟩] concatenates_S50000x128_S50000x128_S50000x256_d1) (shapeCast S256x128 (extractStridedSlice S1x256x128 ![l, 0, 0] W hs) shapeCasts_S1x256x128_S256x128)) (broadcastInDim S50000x128 ![0, 1] bcast_S1x128_S50000x128_0_1 (broadcastInDim S1x128 ![1] bcast_S128_S1x128_1 (shapeCast S128 (extractStridedSlice S1x128 ![l, 0] b hb) shapeCasts_S1x128_S128)))) (broadcastInDim S50000x128 ![] bcast_S_S50000x128 (constant (F := Ideal) S_ .f32 0x00000000#32))
      = Cert.Dense.dualRelu H (Cert.Dense.wband 128 0 (by norm_num) W (⟨l, hl⟩ : Fin 2)) M (Cert.Dense.wband 128 128 (by norm_num) W (⟨l, hl⟩ : Fin 2)) (Cert.Dense.brow b (⟨l, hl⟩ : Fin 2)) := by
  funext i
  obtain ⟨p, q, rfl⟩ : ∃ (p : Fin 50000) (q : Fin 128), i = ValueIdx.ix2 p q := ⟨i 0, i 1, ValueIdx.eq_ix2 i⟩
  rw [maximumf_apply, addf_apply, zero_bcast_apply, Cert.Dense.dualRelu_apply, joined_product_apply l hl, bias_apply l hl]
  rfl

theorem combine_layer0 (H M : FVec Ideal S50000x128 .f32) (W : FVec Ideal S2x256x128 .f32) (b : FVec Ideal S2x128 .f32) :
    maximumf (addf (Host.dotGeneral dot_S50000x256_S256x128_S50000x128_1_0_0_1_n_n none (concatenate S50000x256 1 [⟨S50000x128, H⟩, ⟨S50000x128, M⟩] concatenates_S50000x128_S50000x128_S50000x256_d1) (shapeCast _ (extractStridedSlice S1x256x128 ![0, 0, 0] W slices_S2x256x128_S1x256x128_0_0_0) shapeCasts_S1x256x128_S256x128)) (broadcastInDim S50000x128 ![0, 1] bcast_S1x128_S50000x128_0_1 (broadcastInDim S1x128 ![1] bcast_S128_S1x128_1 (shapeCast _ (extractStridedSlice S1x128 ![0, 0] b slices_S2x128_S1x128_0_0) shapeCasts_S1x128_S128)))) (broadcastInDim S50000x128 ![] bcast_S_S50000x128 (constant (F := Ideal) S_ .f32 0x00000000#32))
      = Cert.Dense.dualRelu H (Cert.Dense.wband 128 0 (by norm_num) W 0) M (Cert.Dense.wband 128 128 (by norm_num) W 0) (Cert.Dense.brow b 0) :=
  combine_layer 0 (by norm_num) H M W b slices_S2x256x128_S1x256x128_0_0_0 slices_S2x128_S1x128_0_0

theorem combine_layer1 (H M : FVec Ideal S50000x128 .f32) (W : FVec Ideal S2x256x128 .f32) (b : FVec Ideal S2x128 .f32) :
    maximumf (addf (Host.dotGeneral dot_S50000x256_S256x128_S50000x128_1_0_0_1_n_n none (concatenate S50000x256 1 [⟨S50000x128, H⟩, ⟨S50000x128, M⟩] concatenates_S50000x128_S50000x128_S50000x256_d1) (shapeCast _ (extractStridedSlice S1x256x128 ![1, 0, 0] W slices_S2x256x128_S1x256x128_1_0_0) shapeCasts_S1x256x128_S256x128)) (broadcastInDim S50000x128 ![0, 1] bcast_S1x128_S50000x128_0_1 (broadcastInDim S1x128 ![1] bcast_S128_S1x128_1 (shapeCast _ (extractStridedSlice S1x128 ![1, 0] b slices_S2x128_S1x128_1_0) shapeCasts_S1x128_S128)))) (broadcastInDim S50000x128 ![] bcast_S_S50000x128 (constant (F := Ideal) S_ .f32 0x00000000#32))
      = Cert.Dense.dualRelu H (Cert.Dense.wband 128 0 (by norm_num) W 1) M (Cert.Dense.wband 128 128 (by norm_num) W 1) (Cert.Dense.brow b 1) :=
  combine_layer 1 (by norm_num) H M W b slices_S2x256x128_S1x256x128_1_0_0 slices_S2x128_S1x128_1_0

end Cert.ReferenceIdeal.Layers

end
-- ==== Proof.RefNet.lean ====
/-
  The reference's result is the network function of its arguments.

  The reference's run ends with its result at one composed term of the argument arrays.  Reading that term from the
  inside out: the input layer is max(X·W_in + b_in, 0); each combine layer joins the node features and their
  aggregated messages side by side and multiplies by one matrix of the weight stack, which is the sum of the two
  half-products; the head is an affine map.  The aggregation between the layers — gather along the edges' sources,
  add up at their destinations, divide by the in-degree — is carried as one function and never opened.
-/
import proofs.«168778_j44289702756626_1_alg».proof.Proof.Gen.ReferenceIdeal.Run
import proofs.«168778_j44289702756626_1_alg».proof.Proof.DenseNet
import proofs.«168778_j44289702756626_1_alg».proof.Proof.RefLayers

set_option maxRecDepth 8192

noncomputable section

namespace Cert.ReferenceIdeal.Net

open Cert.ReferenceIdeal Cert.ReferenceIdeal.Gen Idealize.ShloMosaic Idealize.ShloMosaic.TcCoe Idealize.SL.Sem

/-- The mean of the features of a node's in-neighbours: gather the features along the edges' sources (a negative
    source index wrapped by the node count), add them up at the edges' destinations, and divide by the larger of the
    in-degree and one. -/
def agg (adj : (⟨S600000x2, .i32⟩ : BufTy).Contents (Elt Ideal)) (h : FVec Ideal S50000x128 .f32) : FVec Ideal S50000x128 .f32 :=
  mulf (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S600000x1 ![0, 1] adj slices_S600000x2_S600000x1_0_1) shapeCasts_S600000x1_S600000)) (Host.gather gather_S50000x128_S600000x1_S600000x128_1_0_n_n_0_1_1128 h (broadcastInDim S600000x1 ![0] bcast_S600000_S600000x1_0 (select (cmpi .slt (shapeCast _ (extractStridedSlice S600000x1 ![0, 0] adj slices_S600000x2_S600000x1_0_0) shapeCasts_S600000x1_S600000) (broadcastInDim S600000 ![] bcast_S_S600000 (constantI S_ 32 0#32))) (addi (shapeCast _ (extractStridedSlice S600000x1 ![0, 0] adj slices_S600000x2_S600000x1_0_0) shapeCasts_S600000x1_S600000) (broadcastInDim S600000 ![] bcast_S_S600000 (constantI S_ 32 50000#32))) (shapeCast _ (extractStridedSlice S600000x1 ![0, 0] adj slices_S600000x2_S600000x1_0_0) shapeCasts_S600000x1_S600000))))) (broadcastInDim S50000x128 ![0, 1] bcast_S50000x1_S50000x128_0_1 (broadcastInDim S50000x1 ![0] bcast_S50000_S50000x1_0 (Host.divf (broadcastInDim S50000 ![] bcast_S_S50000 (constant S_ .f32 0x3F800000#32)) (maximumf (Host.scatterAdd scatter_S50000_S600000x1_S600000_n_0_0_1 (broadcastInDim S50000 ![] bcast_S_S50000 (constant S_ .f32 0x00000000#32)) (broadcastInDim S600000x1 ![0] bcast_S600000_S600000x1_0 (shapeCast _ (extractStridedSlice S600000x1 ![0, 1] adj slices_S600000x2_S600000x1_0_1) shapeCasts_S600000x1_S600000)) (broadcastInDim S600000 ![] bcast_S_S600000 (constant S_ .f32 0x3F800000#32))) (broadcastInDim S50000 ![] bcast_S_S50000 (constant S_ .f32 0x3F800000#32))))))

/-- The run's result term is the network function, with `agg` of the edge list as the aggregation. -/
theorem res_eq (m : (ℓ : Loc nD τ sig) → Buf (Elt Ideal) ℓ) (c : Dev nD) :
    Cert.ReferenceIdeal.Value.res_main_v66 (F := Ideal) m c
      = Cert.Dense.net (agg (m ((c.tc : Thread nD τ).loc main_arg1))) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v66
  rw [Cert.ReferenceIdeal.Layers.input_layer, Cert.ReferenceIdeal.Layers.combine_layer0,
    Cert.ReferenceIdeal.Layers.combine_layer1, Cert.ReferenceIdeal.Layers.output_layer]
  rfl

end Cert.ReferenceIdeal.Net

end
-- ==== Proof.lean ====
/-
  The certificate of a two-layer message-passing network: a kernel whose four dense stages run as tiled matrix
  kernels on blocks of 2000 nodes, against a reference that computes the same stages as whole-array products.

  Frames: each program terminates without a fault and leaves its arguments as launched (the kernel's two printings
  by their frame certificates, the reference by its run).  The idealization rewrote nothing, so it preserves the
  kernel trivially.  Values: on the extended reals both programs end at ONE function of the arguments, the network
  function of Proof/DenseNet.lean — the kernel because every block of rows of a stage's output is that stage's
  function of the same rows of its inputs (Proof/Region0…3.lean) and the blocks tile the array, the reference layer
  by layer (Proof/RefLayers.lean); the only arithmetic law between them is that a 256-term dot product against two
  rows joined side by side is the sum of the two 128-term dot products, which holds in any additive commutative
  monoid, so no finiteness of the inputs is used.  The neighbourhood aggregation between the stages is the same
  chain of host operations in both programs and is compared as one function.
-/
import proofs.«168778_j44289702756626_1_alg».proof.Defs
import proofs.«168778_j44289702756626_1_alg».proof.Proof.Gen.Kernel
import proofs.«168778_j44289702756626_1_alg».proof.Proof.Gen.KernelIdeal
import proofs.«168778_j44289702756626_1_alg».proof.Proof.Gen.ReferenceIdeal
import proofs.«168778_j44289702756626_1_alg».proof.Proof.Gen.Pre_finite_inputs
import proofs.«168778_j44289702756626_1_alg».proof.Proof.Gen.ReferenceIdeal.Run
import proofs.«168778_j44289702756626_1_alg».proof.Proof.PatchedKernelFrame
import proofs.«168778_j44289702756626_1_alg».proof.Proof.PatchedKernelIdealFrame
import proofs.«168778_j44289702756626_1_alg».proof.Proof.KernelRun
import proofs.«168778_j44289702756626_1_alg».proof.Proof.Glue
import proofs.«168778_j44289702756626_1_alg».proof.Proof.RefNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two programs aggregate over the edges by the same chain of host operations. -/
theorem agg_eq : @Cert.KernelIdeal.Glue.agg = @Cert.ReferenceIdeal.Net.agg := rfl

/-- Both programs end at the network function of the (agreeing) arguments. -/
theorem algebraic : Cert.algebraic_KernelIdeal_ReferenceIdeal := by
  intro m ρ m' ρ' _ hagree
  refine ⟨fun c => Cert.Dense.net
      (Cert.KernelIdeal.Glue.agg (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Glue.W8_v57 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Net.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2, ← agg_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
